-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256 .f32) (main_arg6 : FVec F S256x128 .f32) (main_arg7 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 103
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S128x256, .bf16⟩
  | .hbm, ⟨24, _⟩ => ⟨S256x256, .bf16⟩
  | .hbm, ⟨25, _⟩ => ⟨S256x128, .bf16⟩
  | .hbm, ⟨26, _⟩ => ⟨S50000x256, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x256, .bf16⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S50000x256, .bf16⟩
  | .hbm, ⟨52, _⟩ => ⟨S50000x256, .bf16⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x256, .bf16⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S1x256, .f32⟩
  | .hbm, ⟨72, _⟩ => ⟨S50000x256, .f32⟩
  | .hbm, ⟨73, _⟩ => ⟨S50000x256, .f32⟩
  | .hbm, ⟨74, _⟩ => ⟨S_, .f32⟩
  | .hbm, ⟨75, _⟩ => ⟨S50000x256, .f32⟩
  | .hbm, ⟨76, _⟩ => ⟨S50000x256, .f32⟩
  | .hbm, ⟨77, _⟩ => ⟨S50000x256, .bf16⟩
  | .hbm, ⟨78, _⟩ => ⟨S50000x128, .bf16⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .bf16⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .bf16⟩
  | .local _ .vmem, ⟨3, _⟩ => ⟨S5000x1, .f32⟩
  | .local _ .vmem, ⟨4, _⟩ => ⟨S5000x1, .f32⟩
  | .local _ .vmem, ⟨5, _⟩ => ⟨S5000x256, .bf16⟩
  | .local _ .vmem, ⟨6, _⟩ => ⟨S5000x256, .bf16⟩
  | .local _ .vmem, ⟨7, _⟩ => ⟨S5000x256, .bf16⟩
  | .local _ .vmem, ⟨8, _⟩ => ⟨S5000x256, .bf16⟩
  | .local _ .vmem, ⟨9, _⟩ => ⟨S256x256, .bf16⟩
  | .local _ .vmem, ⟨10, _⟩ => ⟨S5000x1, .f32⟩
  | .local _ .vmem, ⟨11, _⟩ => ⟨S5000x1, .f32⟩
  | .local _ .vmem, ⟨12, _⟩ => ⟨S5000x256, .bf16⟩
  | .local _ .vmem, ⟨13, _⟩ => ⟨S5000x256, .bf16⟩
  | .local _ .vmem, ⟨14, _⟩ => ⟨S5000x256, .bf16⟩
  | .local _ .vmem, ⟨15, _⟩ => ⟨S5000x256, .bf16⟩
  | .local _ .vmem, ⟨16, _⟩ => ⟨S256x128, .bf16⟩
  | .local _ .vmem, ⟨17, _⟩ => ⟨S5000x1, .f32⟩
  | .local _ .vmem, ⟨18, _⟩ => ⟨S5000x1, .f32⟩
  | .local _ .vmem, ⟨19, _⟩ => ⟨S5000x128, .bf16⟩
  | .local _ .vmem, ⟨20, _⟩ => ⟨S5000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_cst : Ref sig .tc := ⟨.hbm, 48, rfl⟩
abbrev main_call0_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call1_cst : Ref sig .tc := ⟨.hbm, 74, rfl⟩
abbrev main_call1_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_7 : Ref sig .tc := ⟨.hbm, 79, rfl⟩
abbrev main_v58 : Ref sig .tc := ⟨.hbm, 80, rfl⟩
abbrev main_v59 : Ref sig .tc := ⟨.hbm, 81, rfl⟩
abbrev main_c_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_9 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call2_cst : Ref sig .tc := ⟨.hbm, 100, rfl⟩
abbrev main_call2_v0 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .bf16 = 32 ∨ (Rect.block (s := S50000x256) S5000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .bf16 = 32 ∨ (Rect.block (s := S50000x256) S5000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .bf16 = 32 ∨ (Rect.block (s := S50000x128) S5000x128.size (cc2_transform_3 i) (hinb2_3 i)).WholeWords (EltTy.packing .bf16)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000, .f32⟩
  | .hbm, ⟨42, _⟩ => ⟨S50000x1, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S800000x1, .f32⟩
  | .hbm, ⟨54, _⟩ => ⟨S800000x256, .f32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x256, .f32⟩
  | .hbm, ⟨79, _⟩ => ⟨S800000x1, .f32⟩
  | .hbm, ⟨80, _⟩ => ⟨S800000x256, .f32⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000x256, .f32⟩
  | .hbm, ⟨94, _⟩ => ⟨S50000x256, .f32⟩
  | .hbm, ⟨95, _⟩ => ⟨S50000x128, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x128, .f32⟩
  | .hbm, ⟨105, _⟩ => ⟨S800000x1, .f32⟩
  | .hbm, ⟨106, _⟩ => ⟨S800000x128, .f32⟩
  | .hbm, ⟨107, _⟩ => ⟨S800000x128, .f32⟩
  | .hbm, ⟨108, _⟩ => ⟨S_, .f32⟩
  | .hbm, ⟨109, _⟩ => ⟨S50000x128, .f32⟩
  | .hbm, ⟨110, _⟩ => ⟨S800000x1, .i32⟩
  | .hbm, ⟨111, _⟩ => ⟨S50000x128, .f32⟩
  | .hbm, ⟨112, _⟩ => ⟨S50000x128, .f32⟩
  | .hbm, ⟨113, _⟩ => ⟨S50000x128, .f32⟩
  | .hbm, ⟨114, _⟩ => ⟨S50000x128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call1_cst : Ref sig .tc := ⟨.hbm, 92, rfl⟩
abbrev main_call1_v0 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call2_cst : Ref sig .tc := ⟨.hbm, 118, rfl⟩
abbrev main_call2_v0 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel's run, with its result named.

  @main of the kernel program is twelve segments: host operations, then the first projection kernel, then the
  first layer's aggregation on the host, the second projection kernel, the second aggregation, the third
  projection kernel and the third aggregation.  The buffer contents at each segment boundary are the fold
  `W0 … W12` through the segments; every weakly fair execution ends with every unscoped buffer at `W12`.
  Here that final state is read at the RESULT buffer as well as at the eight arguments: the result array is
  `W12` at the last layer's rectified output.
-/
import proofs.«137940_j67774583931071_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents `W12` and the argument arrays as launched. -/
theorem run_named : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Named

end
-- ==== Proof.KKeep.lean ====
/-
  What the kernel program's later segments leave alone.

  The source and target words, the column of normalisers and the two later weight matrices in the narrower format are
  written once, by the host operations before the first kernel call; the biases are arguments.  No later host operation
  writes any of them, and a kernel call writes only its output array, so each still holds at every later segment
  boundary what it held when the first kernel was entered (`W1`), and an argument what it held at the launch.
-/
import proofs.«137940_j67774583931071_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem step2_v1 (c : Dev nD) : W2 m ρ c (Proc.devRef .tc main_v1) = W1 m ρ c (Proc.devRef .tc main_v1) :=
  W2_of_ne m ρ c main_v1 (by decide)
theorem step3_v1 (c : Dev nD) : W3 m ρ c (Proc.devRef .tc main_v1) = W2 m ρ c (Proc.devRef .tc main_v1) :=
  StableHlo.after_of_forall_not_mem (b := Proc.devRef .tc main_v1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step4_v1 (c : Dev nD) : W4 m ρ c (Proc.devRef .tc main_v1) = W3 m ρ c (Proc.devRef .tc main_v1) :=
  StableHlo.after_of_forall_not_mem (b := Proc.devRef .tc main_v1) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step5_v1 (c : Dev nD) : W5 m ρ c (Proc.devRef .tc main_v1) = W4 m ρ c (Proc.devRef .tc main_v1) :=
  StableHlo.after_of_forall_not_mem (b := Proc.devRef .tc main_v1) _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step6_v1 (c : Dev nD) : W6 m ρ c (Proc.devRef .tc main_v1) = W5 m ρ c (Proc.devRef .tc main_v1) :=
  W6_of_ne m ρ c main_v1 (by decide)
theorem step7_v1 (c : Dev nD) : W7 m ρ c (Proc.devRef .tc main_v1) = W6 m ρ c (Proc.devRef .tc main_v1) :=
  StableHlo.after_of_forall_not_mem (b := Proc.devRef .tc main_v1) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step8_v1 (c : Dev nD) : W8 m ρ c (Proc.devRef .tc main_v1) = W7 m ρ c (Proc.devRef .tc main_v1) :=
  StableHlo.after_of_forall_not_mem (b := Proc.devRef .tc main_v1) _ _ (List.forall_iff_forall_mem.mp (by
      simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step9_v1 (c : Dev nD) : W9 m ρ c (Proc.devRef .tc main_v1) = W8 m ρ c (Proc.devRef .tc main_v1) :=
  StableHlo.after_of_forall_not_mem (b := Proc.devRef .tc main_v1) _ _ (List.forall_iff_forall_mem.mp (by
      simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step10_v1 (c : Dev nD) : W10 m ρ c (Proc.devRef .tc main_v1) = W9 m ρ c (Proc.devRef .tc main_v1) :=
  W10_of_ne m ρ c main_v1 (by decide)
theorem keep2_v1 (c : Dev nD) : W2 m ρ c (Proc.devRef .tc main_v1) = W1 m ρ c (Proc.devRef .tc main_v1) :=
  (step2_v1 m ρ c)
theorem keep3_v1 (c : Dev nD) : W3 m ρ c (Proc.devRef .tc main_v1) = W1 m ρ c (Proc.devRef .tc main_v1) :=
  (step3_v1 m ρ c).trans (keep2_v1 m ρ c)
theorem keep4_v1 (c : Dev nD) : W4 m ρ c (Proc.devRef .tc main_v1) = W1 m ρ c (Proc.devRef .tc main_v1) :=
  (step4_v1 m ρ c).trans (keep3_v1 m ρ c)
theorem keep5_v1 (c : Dev nD) : W5 m ρ c (Proc.devRef .tc main_v1) = W1 m ρ c (Proc.devRef .tc main_v1) :=
  (step5_v1 m ρ c).trans (keep4_v1 m ρ c)
theorem keep6_v1 (c : Dev nD) : W6 m ρ c (Proc.devRef .tc main_v1) = W1 m ρ c (Proc.devRef .tc main_v1) :=
  (step6_v1 m ρ c).trans (keep5_v1 m ρ c)
theorem keep7_v1 (c : Dev nD) : W7 m ρ c (Proc.devRef .tc main_v1) = W1 m ρ c (Proc.devRef .tc main_v1) :=
  (step7_v1 m ρ c).trans (keep6_v1 m ρ c)
theorem keep8_v1 (c : Dev nD) : W8 m ρ c (Proc.devRef .tc main_v1) = W1 m ρ c (Proc.devRef .tc main_v1) :=
  (step8_v1 m ρ c).trans (keep7_v1 m ρ c)
theorem keep9_v1 (c : Dev nD) : W9 m ρ c (Proc.devRef .tc main_v1) = W1 m ρ c (Proc.devRef .tc main_v1) :=
  (step9_v1 m ρ c).trans (keep8_v1 m ρ c)
theorem keep10_v1 (c : Dev nD) : W10 m ρ c (Proc.devRef .tc main_v1) = W1 m ρ c (Proc.devRef .tc main_v1) :=
  (step10_v1 m ρ c).trans (keep9_v1 m ρ c)

theorem step2_v3 (c : Dev nD) : W2 m ρ c (Proc.devRef .tc main_v3) = W1 m ρ c (Proc.devRef .tc main_v3) :=
  W2_of_ne m ρ c main_v3 (by decide)
theorem step3_v3 (c : Dev nD) : W3 m ρ c (Proc.devRef .tc main_v3) = W2 m ρ c (Proc.devRef .tc main_v3) :=
  StableHlo.after_of_forall_not_mem (b := Proc.devRef .tc main_v3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step4_v3 (c : Dev nD) : W4 m ρ c (Proc.devRef .tc main_v3) = W3 m ρ c (Proc.devRef .tc main_v3) :=
  StableHlo.after_of_forall_not_mem (b := Proc.devRef .tc main_v3) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step5_v3 (c : Dev nD) : W5 m ρ c (Proc.devRef .tc main_v3) = W4 m ρ c (Proc.devRef .tc main_v3) :=
  StableHlo.after_of_forall_not_mem (b := Proc.devRef .tc main_v3) _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step6_v3 (c : Dev nD) : W6 m ρ c (Proc.devRef .tc main_v3) = W5 m ρ c (Proc.devRef .tc main_v3) :=
  W6_of_ne m ρ c main_v3 (by decide)
theorem step7_v3 (c : Dev nD) : W7 m ρ c (Proc.devRef .tc main_v3) = W6 m ρ c (Proc.devRef .tc main_v3) :=
  StableHlo.after_of_forall_not_mem (b := Proc.devRef .tc main_v3) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step8_v3 (c : Dev nD) : W8 m ρ c (Proc.devRef .tc main_v3) = W7 m ρ c (Proc.devRef .tc main_v3) :=
  StableHlo.after_of_forall_not_mem (b := Proc.devRef .tc main_v3) _ _ (List.forall_iff_forall_mem.mp (by
      simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step9_v3 (c : Dev nD) : W9 m ρ c (Proc.devRef .tc main_v3) = W8 m ρ c (Proc.devRef .tc main_v3) :=
  StableHlo.after_of_forall_not_mem (b := Proc.devRef .tc main_v3) _ _ (List.forall_iff_forall_mem.mp (by
      simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step10_v3 (c : Dev nD) : W10 m ρ c (Proc.devRef .tc main_v3) = W9 m ρ c (Proc.devRef .tc main_v3) :=
  W10_of_ne m ρ c main_v3 (by decide)
theorem keep2_v3 (c : Dev nD) : W2 m ρ c (Proc.devRef .tc main_v3) = W1 m ρ c (Proc.devRef .tc main_v3) :=
  (step2_v3 m ρ c)
theorem keep3_v3 (c : Dev nD) : W3 m ρ c (Proc.devRef .tc main_v3) = W1 m ρ c (Proc.devRef .tc main_v3) :=
  (step3_v3 m ρ c).trans (keep2_v3 m ρ c)
theorem keep4_v3 (c : Dev nD) : W4 m ρ c (Proc.devRef .tc main_v3) = W1 m ρ c (Proc.devRef .tc main_v3) :=
  (step4_v3 m ρ c).trans (keep3_v3 m ρ c)
theorem keep5_v3 (c : Dev nD) : W5 m ρ c (Proc.devRef .tc main_v3) = W1 m ρ c (Proc.devRef .tc main_v3) :=
  (step5_v3 m ρ c).trans (keep4_v3 m ρ c)
theorem keep6_v3 (c : Dev nD) : W6 m ρ c (Proc.devRef .tc main_v3) = W1 m ρ c (Proc.devRef .tc main_v3) :=
  (step6_v3 m ρ c).trans (keep5_v3 m ρ c)
theorem keep7_v3 (c : Dev nD) : W7 m ρ c (Proc.devRef .tc main_v3) = W1 m ρ c (Proc.devRef .tc main_v3) :=
  (step7_v3 m ρ c).trans (keep6_v3 m ρ c)
theorem keep8_v3 (c : Dev nD) : W8 m ρ c (Proc.devRef .tc main_v3) = W1 m ρ c (Proc.devRef .tc main_v3) :=
  (step8_v3 m ρ c).trans (keep7_v3 m ρ c)
theorem keep9_v3 (c : Dev nD) : W9 m ρ c (Proc.devRef .tc main_v3) = W1 m ρ c (Proc.devRef .tc main_v3) :=
  (step9_v3 m ρ c).trans (keep8_v3 m ρ c)
theorem keep10_v3 (c : Dev nD) : W10 m ρ c (Proc.devRef .tc main_v3) = W1 m ρ c (Proc.devRef .tc main_v3) :=
  (step10_v3 m ρ c).trans (keep9_v3 m ρ c)

theorem step2_v11 (c : Dev nD) : W2 m ρ c (Proc.devRef .tc main_v11) = W1 m ρ c (Proc.devRef .tc main_v11) :=
  (W2_arr m ρ c 2).trans (((dat0 (V1 m ρ) c).arrAt_in 2 rfl _).trans (A_eq0 (V1 m ρ) c 2))
theorem step3_v11 (c : Dev nD) : W3 m ρ c (Proc.devRef .tc main_v11) = W2 m ρ c (Proc.devRef .tc main_v11) :=
  StableHlo.after_of_forall_not_mem (b := Proc.devRef .tc main_v11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step4_v11 (c : Dev nD) : W4 m ρ c (Proc.devRef .tc main_v11) = W3 m ρ c (Proc.devRef .tc main_v11) :=
  StableHlo.after_of_forall_not_mem (b := Proc.devRef .tc main_v11) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step5_v11 (c : Dev nD) : W5 m ρ c (Proc.devRef .tc main_v11) = W4 m ρ c (Proc.devRef .tc main_v11) :=
  StableHlo.after_of_forall_not_mem (b := Proc.devRef .tc main_v11) _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step6_v11 (c : Dev nD) : W6 m ρ c (Proc.devRef .tc main_v11) = W5 m ρ c (Proc.devRef .tc main_v11) :=
  (W6_arr m ρ c 2).trans (((dat1 (V5 m ρ) c).arrAt_in 2 rfl _).trans (A_eq1 (V5 m ρ) c 2))
theorem step7_v11 (c : Dev nD) : W7 m ρ c (Proc.devRef .tc main_v11) = W6 m ρ c (Proc.devRef .tc main_v11) :=
  StableHlo.after_of_forall_not_mem (b := Proc.devRef .tc main_v11) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step8_v11 (c : Dev nD) : W8 m ρ c (Proc.devRef .tc main_v11) = W7 m ρ c (Proc.devRef .tc main_v11) :=
  StableHlo.after_of_forall_not_mem (b := Proc.devRef .tc main_v11) _ _ (List.forall_iff_forall_mem.mp (by
      simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step9_v11 (c : Dev nD) : W9 m ρ c (Proc.devRef .tc main_v11) = W8 m ρ c (Proc.devRef .tc main_v11) :=
  StableHlo.after_of_forall_not_mem (b := Proc.devRef .tc main_v11) _ _ (List.forall_iff_forall_mem.mp (by
      simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step10_v11 (c : Dev nD) : W10 m ρ c (Proc.devRef .tc main_v11) = W9 m ρ c (Proc.devRef .tc main_v11) :=
  (W10_arr m ρ c 2).trans (((dat2 (V9 m ρ) c).arrAt_in 2 rfl _).trans (A_eq2 (V9 m ρ) c 2))
theorem keep2_v11 (c : Dev nD) : W2 m ρ c (Proc.devRef .tc main_v11) = W1 m ρ c (Proc.devRef .tc main_v11) :=
  (step2_v11 m ρ c)
theorem keep3_v11 (c : Dev nD) : W3 m ρ c (Proc.devRef .tc main_v11) = W1 m ρ c (Proc.devRef .tc main_v11) :=
  (step3_v11 m ρ c).trans (keep2_v11 m ρ c)
theorem keep4_v11 (c : Dev nD) : W4 m ρ c (Proc.devRef .tc main_v11) = W1 m ρ c (Proc.devRef .tc main_v11) :=
  (step4_v11 m ρ c).trans (keep3_v11 m ρ c)
theorem keep5_v11 (c : Dev nD) : W5 m ρ c (Proc.devRef .tc main_v11) = W1 m ρ c (Proc.devRef .tc main_v11) :=
  (step5_v11 m ρ c).trans (keep4_v11 m ρ c)
theorem keep6_v11 (c : Dev nD) : W6 m ρ c (Proc.devRef .tc main_v11) = W1 m ρ c (Proc.devRef .tc main_v11) :=
  (step6_v11 m ρ c).trans (keep5_v11 m ρ c)
theorem keep7_v11 (c : Dev nD) : W7 m ρ c (Proc.devRef .tc main_v11) = W1 m ρ c (Proc.devRef .tc main_v11) :=
  (step7_v11 m ρ c).trans (keep6_v11 m ρ c)
theorem keep8_v11 (c : Dev nD) : W8 m ρ c (Proc.devRef .tc main_v11) = W1 m ρ c (Proc.devRef .tc main_v11) :=
  (step8_v11 m ρ c).trans (keep7_v11 m ρ c)
theorem keep9_v11 (c : Dev nD) : W9 m ρ c (Proc.devRef .tc main_v11) = W1 m ρ c (Proc.devRef .tc main_v11) :=
  (step9_v11 m ρ c).trans (keep8_v11 m ρ c)
theorem keep10_v11 (c : Dev nD) : W10 m ρ c (Proc.devRef .tc main_v11) = W1 m ρ c (Proc.devRef .tc main_v11) :=
  (step10_v11 m ρ c).trans (keep9_v11 m ρ c)

theorem step2_v13 (c : Dev nD) : W2 m ρ c (Proc.devRef .tc main_v13) = W1 m ρ c (Proc.devRef .tc main_v13) :=
  W2_of_ne m ρ c main_v13 (by decide)
theorem step3_v13 (c : Dev nD) : W3 m ρ c (Proc.devRef .tc main_v13) = W2 m ρ c (Proc.devRef .tc main_v13) :=
  StableHlo.after_of_forall_not_mem (b := Proc.devRef .tc main_v13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step4_v13 (c : Dev nD) : W4 m ρ c (Proc.devRef .tc main_v13) = W3 m ρ c (Proc.devRef .tc main_v13) :=
  StableHlo.after_of_forall_not_mem (b := Proc.devRef .tc main_v13) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step5_v13 (c : Dev nD) : W5 m ρ c (Proc.devRef .tc main_v13) = W4 m ρ c (Proc.devRef .tc main_v13) :=
  StableHlo.after_of_forall_not_mem (b := Proc.devRef .tc main_v13) _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep2_v13 (c : Dev nD) : W2 m ρ c (Proc.devRef .tc main_v13) = W1 m ρ c (Proc.devRef .tc main_v13) :=
  (step2_v13 m ρ c)
theorem keep3_v13 (c : Dev nD) : W3 m ρ c (Proc.devRef .tc main_v13) = W1 m ρ c (Proc.devRef .tc main_v13) :=
  (step3_v13 m ρ c).trans (keep2_v13 m ρ c)
theorem keep4_v13 (c : Dev nD) : W4 m ρ c (Proc.devRef .tc main_v13) = W1 m ρ c (Proc.devRef .tc main_v13) :=
  (step4_v13 m ρ c).trans (keep3_v13 m ρ c)
theorem keep5_v13 (c : Dev nD) : W5 m ρ c (Proc.devRef .tc main_v13) = W1 m ρ c (Proc.devRef .tc main_v13) :=
  (step5_v13 m ρ c).trans (keep4_v13 m ρ c)

theorem step2_v14 (c : Dev nD) : W2 m ρ c (Proc.devRef .tc main_v14) = W1 m ρ c (Proc.devRef .tc main_v14) :=
  W2_of_ne m ρ c main_v14 (by decide)
theorem step3_v14 (c : Dev nD) : W3 m ρ c (Proc.devRef .tc main_v14) = W2 m ρ c (Proc.devRef .tc main_v14) :=
  StableHlo.after_of_forall_not_mem (b := Proc.devRef .tc main_v14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step4_v14 (c : Dev nD) : W4 m ρ c (Proc.devRef .tc main_v14) = W3 m ρ c (Proc.devRef .tc main_v14) :=
  StableHlo.after_of_forall_not_mem (b := Proc.devRef .tc main_v14) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step5_v14 (c : Dev nD) : W5 m ρ c (Proc.devRef .tc main_v14) = W4 m ρ c (Proc.devRef .tc main_v14) :=
  StableHlo.after_of_forall_not_mem (b := Proc.devRef .tc main_v14) _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step6_v14 (c : Dev nD) : W6 m ρ c (Proc.devRef .tc main_v14) = W5 m ρ c (Proc.devRef .tc main_v14) :=
  W6_of_ne m ρ c main_v14 (by decide)
theorem step7_v14 (c : Dev nD) : W7 m ρ c (Proc.devRef .tc main_v14) = W6 m ρ c (Proc.devRef .tc main_v14) :=
  StableHlo.after_of_forall_not_mem (b := Proc.devRef .tc main_v14) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step8_v14 (c : Dev nD) : W8 m ρ c (Proc.devRef .tc main_v14) = W7 m ρ c (Proc.devRef .tc main_v14) :=
  StableHlo.after_of_forall_not_mem (b := Proc.devRef .tc main_v14) _ _ (List.forall_iff_forall_mem.mp (by
      simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step9_v14 (c : Dev nD) : W9 m ρ c (Proc.devRef .tc main_v14) = W8 m ρ c (Proc.devRef .tc main_v14) :=
  StableHlo.after_of_forall_not_mem (b := Proc.devRef .tc main_v14) _ _ (List.forall_iff_forall_mem.mp (by
      simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep2_v14 (c : Dev nD) : W2 m ρ c (Proc.devRef .tc main_v14) = W1 m ρ c (Proc.devRef .tc main_v14) :=
  (step2_v14 m ρ c)
theorem keep3_v14 (c : Dev nD) : W3 m ρ c (Proc.devRef .tc main_v14) = W1 m ρ c (Proc.devRef .tc main_v14) :=
  (step3_v14 m ρ c).trans (keep2_v14 m ρ c)
theorem keep4_v14 (c : Dev nD) : W4 m ρ c (Proc.devRef .tc main_v14) = W1 m ρ c (Proc.devRef .tc main_v14) :=
  (step4_v14 m ρ c).trans (keep3_v14 m ρ c)
theorem keep5_v14 (c : Dev nD) : W5 m ρ c (Proc.devRef .tc main_v14) = W1 m ρ c (Proc.devRef .tc main_v14) :=
  (step5_v14 m ρ c).trans (keep4_v14 m ρ c)
theorem keep6_v14 (c : Dev nD) : W6 m ρ c (Proc.devRef .tc main_v14) = W1 m ρ c (Proc.devRef .tc main_v14) :=
  (step6_v14 m ρ c).trans (keep5_v14 m ρ c)
theorem keep7_v14 (c : Dev nD) : W7 m ρ c (Proc.devRef .tc main_v14) = W1 m ρ c (Proc.devRef .tc main_v14) :=
  (step7_v14 m ρ c).trans (keep6_v14 m ρ c)
theorem keep8_v14 (c : Dev nD) : W8 m ρ c (Proc.devRef .tc main_v14) = W1 m ρ c (Proc.devRef .tc main_v14) :=
  (step8_v14 m ρ c).trans (keep7_v14 m ρ c)
theorem keep9_v14 (c : Dev nD) : W9 m ρ c (Proc.devRef .tc main_v14) = W1 m ρ c (Proc.devRef .tc main_v14) :=
  (step9_v14 m ρ c).trans (keep8_v14 m ρ c)

theorem step2_arg3 (c : Dev nD) : W2 m ρ c (Proc.devRef .tc main_arg3) = W1 m ρ c (Proc.devRef .tc main_arg3) :=
  W2_of_ne m ρ c main_arg3 (by decide)
theorem keep2_arg3 (c : Dev nD) : W2 m ρ c (Proc.devRef .tc main_arg3) = W1 m ρ c (Proc.devRef .tc main_arg3) :=
  (step2_arg3 m ρ c)

theorem step2_arg5 (c : Dev nD) : W2 m ρ c (Proc.devRef .tc main_arg5) = W1 m ρ c (Proc.devRef .tc main_arg5) :=
  W2_of_ne m ρ c main_arg5 (by decide)
theorem step3_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step4_arg5 (c : Dev nD) : W4 m ρ c (Proc.devRef .tc main_arg5) = W3 m ρ c (Proc.devRef .tc main_arg5) :=
  StableHlo.after_of_forall_not_mem (b := Proc.devRef .tc main_arg5) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step5_arg5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step6_arg5 (c : Dev nD) : W6 m ρ c (Proc.devRef .tc main_arg5) = W5 m ρ c (Proc.devRef .tc main_arg5) :=
  W6_of_ne m ρ c main_arg5 (by decide)
theorem keep2_arg5 (c : Dev nD) : W2 m ρ c (Proc.devRef .tc main_arg5) = W1 m ρ c (Proc.devRef .tc main_arg5) :=
  (step2_arg5 m ρ c)
theorem keep3_arg5 (c : Dev nD) : W3 m ρ c (Proc.devRef .tc main_arg5) = W1 m ρ c (Proc.devRef .tc main_arg5) :=
  (step3_arg5 m ρ c).trans (keep2_arg5 m ρ c)
theorem keep4_arg5 (c : Dev nD) : W4 m ρ c (Proc.devRef .tc main_arg5) = W1 m ρ c (Proc.devRef .tc main_arg5) :=
  (step4_arg5 m ρ c).trans (keep3_arg5 m ρ c)
theorem keep5_arg5 (c : Dev nD) : W5 m ρ c (Proc.devRef .tc main_arg5) = W1 m ρ c (Proc.devRef .tc main_arg5) :=
  (step5_arg5 m ρ c).trans (keep4_arg5 m ρ c)
theorem keep6_arg5 (c : Dev nD) : W6 m ρ c (Proc.devRef .tc main_arg5) = W1 m ρ c (Proc.devRef .tc main_arg5) :=
  (step6_arg5 m ρ c).trans (keep5_arg5 m ρ c)

theorem step2_arg7 (c : Dev nD) : W2 m ρ c (Proc.devRef .tc main_arg7) = W1 m ρ c (Proc.devRef .tc main_arg7) :=
  W2_of_ne m ρ c main_arg7 (by decide)
theorem step3_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step4_arg7 (c : Dev nD) : W4 m ρ c (Proc.devRef .tc main_arg7) = W3 m ρ c (Proc.devRef .tc main_arg7) :=
  StableHlo.after_of_forall_not_mem (b := Proc.devRef .tc main_arg7) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step5_arg7 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step6_arg7 (c : Dev nD) : W6 m ρ c (Proc.devRef .tc main_arg7) = W5 m ρ c (Proc.devRef .tc main_arg7) :=
  W6_of_ne m ρ c main_arg7 (by decide)
theorem step7_arg7 (c : Dev nD) : W7 m ρ c (Proc.devRef .tc main_arg7) = W6 m ρ c (Proc.devRef .tc main_arg7) :=
  StableHlo.after_of_forall_not_mem (b := Proc.devRef .tc main_arg7) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step8_arg7 (c : Dev nD) : W8 m ρ c (Proc.devRef .tc main_arg7) = W7 m ρ c (Proc.devRef .tc main_arg7) :=
  StableHlo.after_of_forall_not_mem (b := Proc.devRef .tc main_arg7) _ _ (List.forall_iff_forall_mem.mp (by
      simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step9_arg7 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
      simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step10_arg7 (c : Dev nD) : W10 m ρ c (Proc.devRef .tc main_arg7) = W9 m ρ c (Proc.devRef .tc main_arg7) :=
  W10_of_ne m ρ c main_arg7 (by decide)
theorem keep2_arg7 (c : Dev nD) : W2 m ρ c (Proc.devRef .tc main_arg7) = W1 m ρ c (Proc.devRef .tc main_arg7) :=
  (step2_arg7 m ρ c)
theorem keep3_arg7 (c : Dev nD) : W3 m ρ c (Proc.devRef .tc main_arg7) = W1 m ρ c (Proc.devRef .tc main_arg7) :=
  (step3_arg7 m ρ c).trans (keep2_arg7 m ρ c)
theorem keep4_arg7 (c : Dev nD) : W4 m ρ c (Proc.devRef .tc main_arg7) = W1 m ρ c (Proc.devRef .tc main_arg7) :=
  (step4_arg7 m ρ c).trans (keep3_arg7 m ρ c)
theorem keep5_arg7 (c : Dev nD) : W5 m ρ c (Proc.devRef .tc main_arg7) = W1 m ρ c (Proc.devRef .tc main_arg7) :=
  (step5_arg7 m ρ c).trans (keep4_arg7 m ρ c)
theorem keep6_arg7 (c : Dev nD) : W6 m ρ c (Proc.devRef .tc main_arg7) = W1 m ρ c (Proc.devRef .tc main_arg7) :=
  (step6_arg7 m ρ c).trans (keep5_arg7 m ρ c)
theorem keep7_arg7 (c : Dev nD) : W7 m ρ c (Proc.devRef .tc main_arg7) = W1 m ρ c (Proc.devRef .tc main_arg7) :=
  (step7_arg7 m ρ c).trans (keep6_arg7 m ρ c)
theorem keep8_arg7 (c : Dev nD) : W8 m ρ c (Proc.devRef .tc main_arg7) = W1 m ρ c (Proc.devRef .tc main_arg7) :=
  (step8_arg7 m ρ c).trans (keep7_arg7 m ρ c)
theorem keep9_arg7 (c : Dev nD) : W9 m ρ c (Proc.devRef .tc main_arg7) = W1 m ρ c (Proc.devRef .tc main_arg7) :=
  (step9_arg7 m ρ c).trans (keep8_arg7 m ρ c)
theorem keep10_arg7 (c : Dev nD) : W10 m ρ c (Proc.devRef .tc main_arg7) = W1 m ρ c (Proc.devRef .tc main_arg7) :=
  (step10_arg7 m ρ c).trans (keep9_arg7 m ρ c)

theorem launch_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem launch_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem launch_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem launch_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

end Cert.KernelIdeal.Kept

end
-- ==== Proof.LibColumn.lean ====
/-
  Three layout operations on a column, each read at an index by its coordinates: a column `[a, 1]` broadcast
  along its unit axis to `[a, b]` reads the column's row; a vector `[a]` cast to the column `[a, 1]` reads the
  vector at the row; and any array cast to a shape of the same extents is itself. Together they are what a
  row-wise reduction kept as a column (`sum(axis = 1, keepdims = True)`) and a per-row factor spread over a
  row's lanes need. General in the extents and the element type.
-/
import Idealize.ShloMosaic.Lib.ValueIdx
import Idealize.ShloMosaic.Lib.ValueLayout
import Idealize.ShloMosaic.Lib.Pipeline.Value

noncomputable section

namespace Idealize.ShloMosaic.ValueIdx

variable {α : Type}

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx

end
-- ==== Proof.KRegion.lean ====
/-
  The three projection kernels, read as values.

  Each kernel call walks ten grid points; at point `t` it holds rows `5000·t … 5000·t + 4999` of the node features, all of the
  weight matrix and the same rows of the column of normalisers, and writes those rows of its output:
      out (p, q) = (∑ k, x (p, k) · w (k, q)) · dinv (p, 0).
  The product is the matrix unit's sum into a zero accumulator; the changes of float format around it are the identity on
  extended reals.  The ten blocks of rows tile the array, so after the call the whole output array is that one function of the
  arrays the call found at entry, whatever they were.
-/
import proofs.«137940_j67774583931071_2_alg».proof.Proof.Gen.KernelIdeal.Frame
import proofs.«137940_j67774583931071_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-! ## Region 0: rows of `[50000, 128]` times `[128, 256]`, each row scaled by its normaliser -/

theorem dot0_lhs0 (i : S5000x256.Idx) (c : dot_S5000x128_S128x256_S5000x256_1_0_0_1_n_n.contr.Idx) : (dot_S5000x128_S128x256_S5000x256_1_0_0_1_n_n.lhsIdx i c 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem dot0_rhs1 (i : S5000x256.Idx) (c : dot_S5000x128_S128x256_S5000x256_1_0_0_1_n_n.contr.Idx) : (dot_S5000x128_S128x256_S5000x256_1_0_0_1_n_n.rhsIdx i c 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The matrix unit's product into a zero accumulator, read at `(p, q)`: the sum over the contracted axis. -/
theorem matmul0_apply {φ₁ φ₂ : FTy} (l : FVec Ideal S5000x128 φ₁) (w : FVec Ideal S128x256 φ₂) (p : Fin 5000) (q : Fin 256) :
    FloatOps.matmul dot_S5000x128_S128x256_S5000x256_1_0_0_1_n_n none l w (constant S5000x256 .f32 0x00000000#32) (ix2 p q) = ∑ k : Fin 128, l (ix2 p k) * w (ix2 k q) := by
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact dot0_lhs0 _ _
    | ⟨1, _⟩ => exact (dot_S5000x128_S128x256_S5000x256_1_0_0_1_n_n.lhsIdx_val_of_single rfl _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (dot_S5000x128_S128x256_S5000x256_1_0_0_1_n_n.rhsIdx_val_of_single rfl _ _).trans hk
    | ⟨1, _⟩ => exact dot0_rhs1 _ _)
  rw [el, er]

/-- The body's one stored value at `(p, q)`: row `p` of the features against column `q` of the weights, times the row's normaliser
    (the changes of float format are the identity on extended reals). -/
theorem pay0_apply (v0 : Vec Ideal S5000x128 .f32) (v2 : Vec Ideal S128x256 .bf16) (v5 : Vec Ideal S5000x1 .f32) (p : Fin 5000) (q : Fin 256) :
    k0_pay1 (F := Ideal) v0 v2 v5 (ix2 p q) = (∑ k : Fin 128, v0 (ix2 p k) * v2 (ix2 k q)) * v5 (ix2 p (0 : Fin 1)) := by
  unfold k0_pay1
  show FloatOps.mulf (F := Ideal) (FloatOps.matmul (F := Ideal) dot_S5000x128_S128x256_S5000x256_1_0_0_1_n_n none _ _ (constant (F := Ideal) S5000x256 .f32 0x00000000#32) (ix2 p q)) (broadcastTo S5000x256 _ broadcasts_S5000x1_S5000x256 (ix2 p q)) = _
  rw [shapeCast_self, shapeCast_self, broadcastTo_a1_ab_apply, matmul0_apply]
  rfl

/-- The region's output array as one function of its three entry arrays. -/
def G0 (X : S50000x128.Idx → EReal) (W : S128x256.Idx → EReal) (dc : S50000x1.Idx → EReal) : S50000x256.Idx → EReal :=
  fun i => (∑ k : Fin 128, X (ix2 (i 0) k) * W (ix2 k (i 1))) * dc (ix2 (i 0) (0 : Fin 1))

/-- What the body leaves in the output window's buffer, index by index. -/
theorem out0_eq (x0 : Vec Ideal S5000x128 .f32) (x1 : Vec Ideal S128x256 .bf16) (x2 : Vec Ideal S5000x1 .f32) :
    out0_3 (F := Ideal) x0 x1 x2 = fun j => (∑ k : Fin 128, x0 (ix2 (j 0) k) * x1 (ix2 k (j 1))) * x2 (ix2 (j 0) (0 : Fin 1)) := by
  unfold out0_3
  rw [View.canon_unit_zero hz]
  simp only [View.ld_unit_zero (S := S5000x128) hz, View.ld_unit_zero (S := S128x256) hz, View.ld_unit_zero (S := S5000x1) hz]
  funext j
  rw [eq_ix2 j]
  exact pay0_apply x0 x1 x2 (j 0) (j 1)

/-- The printed index maps over the ten grid points: the feature, normaliser and output windows move together down the rows, the
    weights stay put. -/
theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every block of rows is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- Reading the three input blocks of point `t` where the output block's entry `j` says: the features' and the normalisers' rows
    are the output's rows, the weights are whole. -/
theorem blocks0 (X : S50000x128.Idx → EReal) (W : S128x256.Idx → EReal) (D : S50000x1.Idx → EReal) (t : Fin cfg0.N) :
    (fun j : S5000x256.Idx => (∑ k : Fin 128, X (((cfg0.win 0).blk t).view.emb (ix2 (n0 := 5000) (n1 := 128) (j 0) k)) * W (((cfg0.win 1).blk t).view.emb (ix2 (n0 := 128) (n1 := 256) k (j 1))))
        * D (((cfg0.win 2).blk t).view.emb (ix2 (n0 := 5000) (n1 := 1) (j 0) (0 : Fin 1))))
      = fun j : S5000x256.Idx => G0 X W D (((cfg0.win 3).blk t).view.emb j) := by
  obtain ⟨e0, e1, e2, e3, e4, e5, e6, e7⟩ := idx_facts0 t
  funext j
  unfold G0
  have hj0 : (j 0).val < 5000 := (j 0).isLt
  have hj1 : (j 1).val < 256 := (j 1).isLt
  have h0 : ∀ k : Fin 128, ((cfg0.win 0).blk t).view.emb (ix2 (n0 := 5000) (n1 := 128) (j 0) k) = ix2 (n0 := 50000) (n1 := 128) ((((cfg0.win 3).blk t).view.emb j) 0) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 (n0 := 128) (n1 := 256) k (j 1)) = ix2 (n0 := 128) (n1 := 256) k ((((cfg0.win 3).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 256 + 1 * (j 1).val = win0_3.index t (1 : Fin 2) * 256 + 1 * (j 1).val; omega
  have h2 : ((cfg0.win 2).blk t).view.emb (ix2 (n0 := 5000) (n1 := 1) (j 0) (0 : Fin 1)) = ix2 (n0 := 50000) (n1 := 1) ((((cfg0.win 3).blk t).view.emb j) 0) (0 : Fin 1) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  show (∑ k : Fin 128, X (((cfg0.win 0).blk t).view.emb (ix2 (n0 := 5000) (n1 := 128) (j 0) k)) * W (((cfg0.win 1).blk t).view.emb (ix2 (n0 := 128) (n1 := 256) k (j 1))))
        * D (((cfg0.win 2).blk t).view.emb (ix2 (n0 := 5000) (n1 := 1) (j 0) (0 : Fin 1))) = _
  rw [h2]
  refine congrArg (· * _) (Finset.sum_congr rfl fun k _ => ?_)
  rw [h0 k, h1 k]

/-- What point `t` writes back is block `t` of `G0` of the arrays as the region finds them. -/
theorem flushed0_eq (c : Dev nD) (t : Fin cfg0.N) :
    (dat0 (F := Ideal) V c).flushed 3 t = ((cfg0.win 3).blk t).view.read (Elt Ideal) (G0 (V c main_arg0) (V c main_v12) (V c main_v11)) := by
  show (cfg0.win 3).cut (grid0.coords t) ((dat0 (F := Ideal) V c).after 3 t) = _
  rw [after0_3, out0_eq]
  exact blocks0 (V c main_arg0) (V c main_v12) (V c main_v11) t

/-- An index of the output array is in point `t`'s block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v15).slice (win0_3.rect t)).set ↔ _
  rw [View.set_slice_whole, Rect.mem_set_unit]
  exact Iff.rfl

/-- The ten blocks of five thousand rows tile the fifty thousand: row `r` is in the block of point `r / 5000`. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- THE REGION'S OUTPUT ARRAY after its ten points: `G0` of the arrays it found. -/
theorem region0_value (c : Dev nD) :
    (dat0 (F := Ideal) V c).arrAt 3 cfg0.N = G0 (V c main_arg0) (V c main_v12) (V c main_v11) :=
  (dat0 (F := Ideal) V c).arrAt_eq_of_cover 3 (G0 (V c main_arg0) (V c main_v12) (V c main_v11)) (fun t _ => flushed0_eq V c t) cover0

/-! ## Region 1: rows of `[50000, 256]` times `[256, 256]`, each row scaled by its normaliser -/

theorem dot1_lhs0 (i : S5000x256.Idx) (c : dot_S5000x256_S256x256_S5000x256_1_0_0_1_n_n.contr.Idx) : (dot_S5000x256_S256x256_S5000x256_1_0_0_1_n_n.lhsIdx i c 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem dot1_rhs1 (i : S5000x256.Idx) (c : dot_S5000x256_S256x256_S5000x256_1_0_0_1_n_n.contr.Idx) : (dot_S5000x256_S256x256_S5000x256_1_0_0_1_n_n.rhsIdx i c 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The matrix unit's product into a zero accumulator, read at `(p, q)`: the sum over the contracted axis. -/
theorem matmul1_apply {φ₁ φ₂ : FTy} (l : FVec Ideal S5000x256 φ₁) (w : FVec Ideal S256x256 φ₂) (p : Fin 5000) (q : Fin 256) :
    FloatOps.matmul dot_S5000x256_S256x256_S5000x256_1_0_0_1_n_n none l w (constant S5000x256 .f32 0x00000000#32) (ix2 p q) = ∑ k : Fin 256, l (ix2 p k) * w (ix2 k q) := by
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact dot1_lhs0 _ _
    | ⟨1, _⟩ => exact (dot_S5000x256_S256x256_S5000x256_1_0_0_1_n_n.lhsIdx_val_of_single rfl _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (dot_S5000x256_S256x256_S5000x256_1_0_0_1_n_n.rhsIdx_val_of_single rfl _ _).trans hk
    | ⟨1, _⟩ => exact dot1_rhs1 _ _)
  rw [el, er]

/-- The body's one stored value at `(p, q)`: row `p` of the features against column `q` of the weights, times the row's normaliser
    (the changes of float format are the identity on extended reals). -/
theorem pay1_apply (v0 : Vec Ideal S5000x256 .bf16) (v2 : Vec Ideal S256x256 .bf16) (v5 : Vec Ideal S5000x1 .f32) (p : Fin 5000) (q : Fin 256) :
    k1_pay1 (F := Ideal) v0 v2 v5 (ix2 p q) = (∑ k : Fin 256, v0 (ix2 p k) * v2 (ix2 k q)) * v5 (ix2 p (0 : Fin 1)) := by
  unfold k1_pay1
  show FloatOps.mulf (F := Ideal) (FloatOps.matmul (F := Ideal) dot_S5000x256_S256x256_S5000x256_1_0_0_1_n_n none _ _ (constant (F := Ideal) S5000x256 .f32 0x00000000#32) (ix2 p q)) (broadcastTo S5000x256 _ broadcasts_S5000x1_S5000x256 (ix2 p q)) = _
  rw [shapeCast_self, shapeCast_self, shapeCast_self, broadcastTo_a1_ab_apply, matmul1_apply]
  rfl

/-- The region's output array as one function of its three entry arrays. -/
def G1 (X : S50000x256.Idx → EReal) (W : S256x256.Idx → EReal) (dc : S50000x1.Idx → EReal) : S50000x256.Idx → EReal :=
  fun i => (∑ k : Fin 256, X (ix2 (i 0) k) * W (ix2 k (i 1))) * dc (ix2 (i 0) (0 : Fin 1))

/-- What the body leaves in the output window's buffer, index by index. -/
theorem out1_eq (x0 : Vec Ideal S5000x256 .bf16) (x1 : Vec Ideal S256x256 .bf16) (x2 : Vec Ideal S5000x1 .f32) :
    out1_3 (F := Ideal) x0 x1 x2 = fun j => (∑ k : Fin 256, x0 (ix2 (j 0) k) * x1 (ix2 k (j 1))) * x2 (ix2 (j 0) (0 : Fin 1)) := by
  unfold out1_3
  rw [View.canon_unit_zero hz]
  simp only [View.ld_unit_zero (S := S5000x256) hz, View.ld_unit_zero (S := S256x256) hz, View.ld_unit_zero (S := S5000x1) hz]
  funext j
  rw [eq_ix2 j]
  exact pay1_apply x0 x1 x2 (j 0) (j 1)

/-- The printed index maps over the ten grid points: the feature, normaliser and output windows move together down the rows, the
    weights stay put. -/
theorem idx_facts1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 9 :=
  (by decide +kernel : ∀ t : Fin grid1.N, _)

/-- Every block of rows is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- Reading the three input blocks of point `t` where the output block's entry `j` says: the features' and the normalisers' rows
    are the output's rows, the weights are whole. -/
theorem blocks1 (X : S50000x256.Idx → EReal) (W : S256x256.Idx → EReal) (D : S50000x1.Idx → EReal) (t : Fin cfg1.N) :
    (fun j : S5000x256.Idx => (∑ k : Fin 256, X (((cfg1.win 0).blk t).view.emb (ix2 (n0 := 5000) (n1 := 256) (j 0) k)) * W (((cfg1.win 1).blk t).view.emb (ix2 (n0 := 256) (n1 := 256) k (j 1))))
        * D (((cfg1.win 2).blk t).view.emb (ix2 (n0 := 5000) (n1 := 1) (j 0) (0 : Fin 1))))
      = fun j : S5000x256.Idx => G1 X W D (((cfg1.win 3).blk t).view.emb j) := by
  obtain ⟨e0, e1, e2, e3, e4, e5, e6, e7⟩ := idx_facts1 t
  funext j
  unfold G1
  have hj0 : (j 0).val < 5000 := (j 0).isLt
  have hj1 : (j 1).val < 256 := (j 1).isLt
  have h0 : ∀ k : Fin 256, ((cfg1.win 0).blk t).view.emb (ix2 (n0 := 5000) (n1 := 256) (j 0) k) = ix2 (n0 := 50000) (n1 := 256) ((((cfg1.win 3).blk t).view.emb j) 0) k := fun k => by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 256 + 1 * k.val = k.val; omega
  have h1 : ∀ k : Fin 256, ((cfg1.win 1).blk t).view.emb (ix2 (n0 := 256) (n1 := 256) k (j 1)) = ix2 (n0 := 256) (n1 := 256) k ((((cfg1.win 3).blk t).view.emb j) 1) := fun k => by
    funext a; apply Fin.ext
    match a with
    | ⟨0, _⟩ => show win1_1.index t (0 : Fin 2) * 256 + 1 * k.val = k.val; omega
    | ⟨1, _⟩ => show win1_1.index t (1 : Fin 2) * 256 + 1 * (j 1).val = win1_3.index t (1 : Fin 2) * 256 + 1 * (j 1).val; omega
  have h2 : ((cfg1.win 2).blk t).view.emb (ix2 (n0 := 5000) (n1 := 1) (j 0) (0 : Fin 1)) = ix2 (n0 := 50000) (n1 := 1) ((((cfg1.win 3).blk t).view.emb j) 0) (0 : Fin 1) := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 1 + 1 * 0 = 0; omega
  show (∑ k : Fin 256, X (((cfg1.win 0).blk t).view.emb (ix2 (n0 := 5000) (n1 := 256) (j 0) k)) * W (((cfg1.win 1).blk t).view.emb (ix2 (n0 := 256) (n1 := 256) k (j 1))))
        * D (((cfg1.win 2).blk t).view.emb (ix2 (n0 := 5000) (n1 := 1) (j 0) (0 : Fin 1))) = _
  rw [h2]
  refine congrArg (· * _) (Finset.sum_congr rfl fun k _ => ?_)
  rw [h0 k, h1 k]

/-- What point `t` writes back is block `t` of `G1` of the arrays as the region finds them. -/
theorem flushed1_eq (c : Dev nD) (t : Fin cfg1.N) :
    (dat1 (F := Ideal) V c).flushed 3 t = ((cfg1.win 3).blk t).view.read (Elt Ideal) (G1 (V c main_v35) (V c main_v13) (V c main_v11)) := by
  show (cfg1.win 3).cut (grid1.coords t) ((dat1 (F := Ideal) V c).after 3 t) = _
  rw [after1_3, out1_eq]
  exact blocks1 (V c main_v35) (V c main_v13) (V c main_v11) t

/-- An index of the output array is in point `t`'s block iff each coordinate is in the block's range on its axis. -/
theorem mem_blk1 (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v36).slice (win1_3.rect t)).set ↔ _
  rw [View.set_slice_whole, Rect.mem_set_unit]
  exact Iff.rfl

/-- The ten blocks of five thousand rows tile the fifty thousand: row `r` is in the block of point `r / 5000`. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- THE REGION'S OUTPUT ARRAY after its ten points: `G1` of the arrays it found. -/
theorem region1_value (c : Dev nD) :
    (dat1 (F := Ideal) V c).arrAt 3 cfg1.N = G1 (V c main_v35) (V c main_v13) (V c main_v11) :=
  (dat1 (F := Ideal) V c).arrAt_eq_of_cover 3 (G1 (V c main_v35) (V c main_v13) (V c main_v11)) (fun t _ => flushed1_eq V c t) cover1

/-! ## Region 2: rows of `[50000, 256]` times `[256, 128]`, each row scaled by its normaliser -/

theorem dot2_lhs0 (i : S5000x128.Idx) (c : dot_S5000x256_S256x128_S5000x128_1_0_0_1_n_n.contr.Idx) : (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem dot2_rhs1 (i : S5000x128.Idx) (c : dot_S5000x256_S256x128_S5000x128_1_0_0_1_n_n.contr.Idx) : (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The matrix unit's product into a zero accumulator, read at `(p, q)`: the sum over the contracted axis. -/
theorem matmul2_apply {φ₁ φ₂ : FTy} (l : FVec Ideal S5000x256 φ₁) (w : FVec Ideal S256x128 φ₂) (p : Fin 5000) (q : Fin 128) :
    FloatOps.matmul dot_S5000x256_S256x128_S5000x128_1_0_0_1_n_n none l w (constant S5000x128 .f32 0x00000000#32) (ix2 p q) = ∑ k : Fin 256, l (ix2 p k) * w (ix2 k q) := by
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact dot2_lhs0 _ _
    | ⟨1, _⟩ => exact (dot_S5000x256_S256x128_S5000x128_1_0_0_1_n_n.lhsIdx_val_of_single rfl _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (dot_S5000x256_S256x128_S5000x128_1_0_0_1_n_n.rhsIdx_val_of_single rfl _ _).trans hk
    | ⟨1, _⟩ => exact dot2_rhs1 _ _)
  rw [el, er]

/-- The body's one stored value at `(p, q)`: row `p` of the features against column `q` of the weights, times the row's normaliser
    (the changes of float format are the identity on extended reals). -/
theorem pay2_apply (v0 : Vec Ideal S5000x256 .bf16) (v2 : Vec Ideal S256x128 .bf16) (v5 : Vec Ideal S5000x1 .f32) (p : Fin 5000) (q : Fin 128) :
    k2_pay1 (F := Ideal) v0 v2 v5 (ix2 p q) = (∑ k : Fin 256, v0 (ix2 p k) * v2 (ix2 k q)) * v5 (ix2 p (0 : Fin 1)) := by
  unfold k2_pay1
  show FloatOps.mulf (F := Ideal) (FloatOps.matmul (F := Ideal) dot_S5000x256_S256x128_S5000x128_1_0_0_1_n_n none _ _ (constant (F := Ideal) S5000x128 .f32 0x00000000#32) (ix2 p q)) (broadcastTo S5000x128 _ broadcasts_S5000x1_S5000x128 (ix2 p q)) = _
  rw [shapeCast_self, shapeCast_self, shapeCast_self, broadcastTo_a1_ab_apply, matmul2_apply]
  rfl

/-- The region's output array as one function of its three entry arrays. -/
def G2 (X : S50000x256.Idx → EReal) (W : S256x128.Idx → EReal) (dc : S50000x1.Idx → EReal) : S50000x128.Idx → EReal :=
  fun i => (∑ k : Fin 256, X (ix2 (i 0) k) * W (ix2 k (i 1))) * dc (ix2 (i 0) (0 : Fin 1))

/-- What the body leaves in the output window's buffer, index by index. -/
theorem out2_eq (x0 : Vec Ideal S5000x256 .bf16) (x1 : Vec Ideal S256x128 .bf16) (x2 : Vec Ideal S5000x1 .f32) :
    out2_3 (F := Ideal) x0 x1 x2 = fun j => (∑ k : Fin 256, x0 (ix2 (j 0) k) * x1 (ix2 k (j 1))) * x2 (ix2 (j 0) (0 : Fin 1)) := by
  unfold out2_3
  rw [View.canon_unit_zero hz]
  simp only [View.ld_unit_zero (S := S5000x256) hz, View.ld_unit_zero (S := S256x128) hz, View.ld_unit_zero (S := S5000x1) hz]
  funext j
  rw [eq_ix2 j]
  exact pay2_apply x0 x1 x2 (j 0) (j 1)

/-- The printed index maps over the ten grid points: the feature, normaliser and output windows move together down the rows, the
    weights stay put. -/
theorem idx_facts2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (1 : Fin 2) = 0 ∧ win2_3.index t (0 : Fin 2) ≤ 9 :=
  (by decide +kernel : ∀ t : Fin grid2.N, _)

/-- Every block of rows is some point's. -/
theorem idx_onto2 : ∀ q0 : Fin 10, ∃ t : Fin cfg2.N, win2_3.index t = ![q0.val, 0] :=
  (by decide +kernel : ∀ q0 : Fin 10, ∃ t : Fin grid2.N, win2_3.index t = ![q0.val, 0])

/-- Reading the three input blocks of point `t` where the output block's entry `j` says: the features' and the normalisers' rows
    are the output's rows, the weights are whole. -/
theorem blocks2 (X : S50000x256.Idx → EReal) (W : S256x128.Idx → EReal) (D : S50000x1.Idx → EReal) (t : Fin cfg2.N) :
    (fun j : S5000x128.Idx => (∑ k : Fin 256, X (((cfg2.win 0).blk t).view.emb (ix2 (n0 := 5000) (n1 := 256) (j 0) k)) * W (((cfg2.win 1).blk t).view.emb (ix2 (n0 := 256) (n1 := 128) k (j 1))))
        * D (((cfg2.win 2).blk t).view.emb (ix2 (n0 := 5000) (n1 := 1) (j 0) (0 : Fin 1))))
      = fun j : S5000x128.Idx => G2 X W D (((cfg2.win 3).blk t).view.emb j) := by
  obtain ⟨e0, e1, e2, e3, e4, e5, e6, e7⟩ := idx_facts2 t
  funext j
  unfold G2
  have hj0 : (j 0).val < 5000 := (j 0).isLt
  have hj1 : (j 1).val < 128 := (j 1).isLt
  have h0 : ∀ k : Fin 256, ((cfg2.win 0).blk t).view.emb (ix2 (n0 := 5000) (n1 := 256) (j 0) k) = ix2 (n0 := 50000) (n1 := 256) ((((cfg2.win 3).blk t).view.emb j) 0) k := fun k => by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 256 + 1 * k.val = k.val; omega
  have h1 : ∀ k : Fin 256, ((cfg2.win 1).blk t).view.emb (ix2 (n0 := 256) (n1 := 128) k (j 1)) = ix2 (n0 := 256) (n1 := 128) k ((((cfg2.win 3).blk t).view.emb j) 1) := fun k => by
    funext a; apply Fin.ext
    match a with
    | ⟨0, _⟩ => show win2_1.index t (0 : Fin 2) * 256 + 1 * k.val = k.val; omega
    | ⟨1, _⟩ => show win2_1.index t (1 : Fin 2) * 128 + 1 * (j 1).val = win2_3.index t (1 : Fin 2) * 128 + 1 * (j 1).val; omega
  have h2 : ((cfg2.win 2).blk t).view.emb (ix2 (n0 := 5000) (n1 := 1) (j 0) (0 : Fin 1)) = ix2 (n0 := 50000) (n1 := 1) ((((cfg2.win 3).blk t).view.emb j) 0) (0 : Fin 1) := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 1 + 1 * 0 = 0; omega
  show (∑ k : Fin 256, X (((cfg2.win 0).blk t).view.emb (ix2 (n0 := 5000) (n1 := 256) (j 0) k)) * W (((cfg2.win 1).blk t).view.emb (ix2 (n0 := 256) (n1 := 128) k (j 1))))
        * D (((cfg2.win 2).blk t).view.emb (ix2 (n0 := 5000) (n1 := 1) (j 0) (0 : Fin 1))) = _
  rw [h2]
  refine congrArg (· * _) (Finset.sum_congr rfl fun k _ => ?_)
  rw [h0 k, h1 k]

/-- What point `t` writes back is block `t` of `G2` of the arrays as the region finds them. -/
theorem flushed2_eq (c : Dev nD) (t : Fin cfg2.N) :
    (dat2 (F := Ideal) V c).flushed 3 t = ((cfg2.win 3).blk t).view.read (Elt Ideal) (G2 (V c main_v56) (V c main_v14) (V c main_v11)) := by
  show (cfg2.win 3).cut (grid2.coords t) ((dat2 (F := Ideal) V c).after 3 t) = _
  rw [after2_3, out2_eq]
  exact blocks2 (V c main_v56) (V c main_v14) (V c main_v11) t

/-- An index of the output array is in point `t`'s block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v57).slice (win2_3.rect t)).set ↔ _
  rw [View.set_slice_whole, Rect.mem_set_unit]
  exact Iff.rfl

/-- The ten blocks of five thousand rows tile the fifty thousand: row `r` is in the block of point `r / 5000`. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE REGION'S OUTPUT ARRAY after its ten points: `G2` of the arrays it found. -/
theorem region2_value (c : Dev nD) :
    (dat2 (F := Ideal) V c).arrAt 3 cfg2.N = G2 (V c main_v56) (V c main_v14) (V c main_v11) :=
  (dat2 (F := Ideal) V c).arrAt_eq_of_cover 3 (G2 (V c main_v56) (V c main_v14) (V c main_v11)) (fun t _ => flushed2_eq V c t) cover2

end Cert.KernelIdeal.RegionValue

end
-- ==== Proof.KHostDefs.lean ====
/-
  The host operations of the kernel program, as pure functions of arrays.

  Between the three projection kernels the program runs, on the host, the same operations three times: gather the
  projected (and already normalised) rows at the wrapped source words, add them up at the target words, add the
  node's own row, scale by the normaliser, add the bias, rectify — and, for the first two layers, hand the result on
  in the narrower float format.  Before the first kernel it splits the edge array into source and target words and
  computes the normalisers: one plus the number of edges arriving at each node, to the power −1/2.
-/
import proofs.«137940_j67774583931071_2_alg».proof.Proof.Gen.KernelIdeal

noncomputable section

namespace Cert.KernelIdeal.HostValue

open Cert.KernelIdeal Cert.KernelIdeal.Facts₀ Idealize.ShloMosaic

variable {F : FTy → Type} [FloatOps F]

/-- The source words: row 0 of the edge array. -/
def srcW (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000
/-- The target words: row 1 of the edge array. -/
def dstW (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000
/-- The target words as the `[E, 1]` index array of the scatters. -/
def didx (ei : (⟨S2x800000, .i32⟩ : BufTy).Contents (Elt F)) : (⟨S800000x1, .i32⟩ : BufTy).Contents (Elt F) :=
  broadcastInDim S800000x1 ![0] bcast_S800000_S800000x1_0 (dstW (F := F) ei)
/-- The source words, a negative one wrapped by the number of nodes, as the `[E, 1]` index array of the gathers. -/
def sidx (ei : (⟨S2x800000, .i32⟩ : BufTy).Contents (Elt F)) : (⟨S800000x1, .i32⟩ : BufTy).Contents (Elt F) :=
  broadcastInDim S800000x1 ![0] bcast_S800000_S800000x1_0
    (select (cmpi .slt (srcW (F := F) ei) (broadcastInDim S800000 ![] bcast_S_S800000 (constantI S_ 32 0#32)))
      (addi (srcW (F := F) ei) (broadcastInDim S800000 ![] bcast_S_S800000 (constantI S_ 32 50000#32))) (srcW (F := F) ei))
/-- The normalisers: (number of edges arriving + 1)^(-1/2). -/
def dinvV (ei : (⟨S2x800000, .i32⟩ : BufTy).Contents (Elt F)) : (⟨S50000, .f32⟩ : BufTy).Contents (Elt F) :=
  Host.rsqrt (addf (Host.scatterAdd scatter_S50000_S800000x1_S800000_n_0_0_1
      (broadcastInDim S50000 ![] bcast_S_S50000 (constant S_ .f32 0x00000000#32)) (didx (F := F) ei)
      (broadcastInDim S800000 ![] bcast_S_S800000 (constant S_ .f32 0x3F800000#32)))
    (broadcastInDim S50000 ![] bcast_S_S50000 (constant S_ .f32 0x3F800000#32)))
/-- The normalisers as a column. -/
def dcol (ei : (⟨S2x800000, .i32⟩ : BufTy).Contents (Elt F)) : (⟨S50000x1, .f32⟩ : BufTy).Contents (Elt F) :=
  broadcastInDim S50000x1 ![0] bcast_S50000_S50000x1_0 (dinvV (F := F) ei)

/-- A layer's host half over 256 features, before the rectifier: normaliser · (arrivals' sum + own row) + bias. -/
def agg256 (A : (⟨S50000x256, .bf16⟩ : BufTy).Contents (Elt F)) (ei : (⟨S2x800000, .i32⟩ : BufTy).Contents (Elt F))
    (b : (⟨S256, .f32⟩ : BufTy).Contents (Elt F)) : (⟨S50000x256, .f32⟩ : BufTy).Contents (Elt F) :=
  addf (mulf (broadcastInDim S50000x256 ![0, 1] bcast_S50000x1_S50000x256_0_1 (dcol (F := F) ei))
      (addf (Host.scatterAdd scatter_S50000x256_S800000x1_S800000x256_1_0_0_1
          (broadcastInDim S50000x256 ![] bcast_S_S50000x256 (constant S_ .f32 0x00000000#32)) (didx (F := F) ei)
          (extf .f32 (Host.gather gather_S50000x256_S800000x1_S800000x256_1_0_n_n_0_1_1256 A (sidx (F := F) ei)) bitsLt_bf16_f32))
        (extf .f32 A bitsLt_bf16_f32)))
    (broadcastInDim S50000x256 ![0, 1] bcast_S1x256_S50000x256_0_1 (broadcastInDim S1x256 ![1] bcast_S256_S1x256_1 b))
/-- The rectifier over 256 features. -/
def relu256 (Y : (⟨S50000x256, .f32⟩ : BufTy).Contents (Elt F)) : (⟨S50000x256, .f32⟩ : BufTy).Contents (Elt F) :=
  maximumf Y (broadcastInDim S50000x256 ![] bcast_S_S50000x256 (constant S_ .f32 0x00000000#32))
/-- What a 256-feature layer hands to the next kernel. -/
def next256 (A : (⟨S50000x256, .bf16⟩ : BufTy).Contents (Elt F)) (ei : (⟨S2x800000, .i32⟩ : BufTy).Contents (Elt F))
    (b : (⟨S256, .f32⟩ : BufTy).Contents (Elt F)) : (⟨S50000x256, .bf16⟩ : BufTy).Contents (Elt F) :=
  truncf .bf16 (relu256 (agg256 A ei b)) bitsLt_bf16_f32

/-- The last layer's host half over 128 features, before the rectifier. -/
def agg128 (A : (⟨S50000x128, .bf16⟩ : BufTy).Contents (Elt F)) (ei : (⟨S2x800000, .i32⟩ : BufTy).Contents (Elt F))
    (b : (⟨S128, .f32⟩ : BufTy).Contents (Elt F)) : (⟨S50000x128, .f32⟩ : BufTy).Contents (Elt F) :=
  addf (mulf (broadcastInDim S50000x128 ![0, 1] bcast_S50000x1_S50000x128_0_1 (dcol (F := F) ei))
      (addf (Host.scatterAdd scatter_S50000x128_S800000x1_S800000x128_1_0_0_1
          (broadcastInDim S50000x128 ![] bcast_S_S50000x128 (constant S_ .f32 0x00000000#32)) (didx (F := F) ei)
          (extf .f32 (Host.gather gather_S50000x128_S800000x1_S800000x128_1_0_n_n_0_1_1128 A (sidx (F := F) ei)) bitsLt_bf16_f32))
        (extf .f32 A bitsLt_bf16_f32)))
    (broadcastInDim S50000x128 ![0, 1] bcast_S1x128_S50000x128_0_1 (broadcastInDim S1x128 ![1] bcast_S128_S1x128_1 b))
/-- The rectifier over 128 features: the program's result. -/
def relu128 (Y : (⟨S50000x128, .f32⟩ : BufTy).Contents (Elt F)) : (⟨S50000x128, .f32⟩ : BufTy).Contents (Elt F) :=
  maximumf Y (broadcastInDim S50000x128 ![] bcast_S_S50000x128 (constant S_ .f32 0x00000000#32))

end Cert.KernelIdeal.HostValue

end
-- ==== Proof.KChain.lean ====
/-
  The idealized kernel program's result array as one term of the arguments.

  Walking the twelve segments of @main from the launch: the host operations before the first kernel call leave the source
  and target words, the column of normalisers and the three weight matrices in the narrower format; each kernel call
  leaves its output array at the projection of its input rows scaled by the normalisers (whatever the call found at
  entry); each later stretch of host operations is a layer's gather, sum, scale, bias and rectifier applied to that
  array, the words and the normalisers, all of which still hold what the first stretch wrote.  Composing, the result
  buffer holds the third layer's rectified output of the second's of the first's.
-/
import proofs.«137940_j67774583931071_2_alg».proof.Proof.KKeep
import proofs.«137940_j67774583931071_2_alg».proof.Proof.KRegion
import proofs.«137940_j67774583931071_2_alg».proof.Proof.KHostDefs
import Idealize.ShloMosaic.Lib.StableHlo.Run

set_option maxRecDepth 16384

noncomputable section

namespace Cert.KernelIdeal.Chain

open Cert.KernelIdeal Cert.KernelIdeal.Gen Cert.KernelIdeal.Kept Cert.KernelIdeal.RegionValue Cert.KernelIdeal.HostValue
open Idealize.ShloMosaic Idealize.ShloMosaic.TcCoe Idealize.ShloMosaic.StableHlo
open Idealize.SL Idealize.SL.Sem

/-! ## The host stretches, from any contents `V` -/

section Stretches

variable (V : Valuation τ sig (Elt Ideal))

/-- A 256-feature layer's host half on given words and normalisers (the form the operations have). -/
def agg256P (A : (⟨S50000x256, .bf16⟩ : BufTy).Contents (Elt Ideal)) (src dst : (⟨S800000, .i32⟩ : BufTy).Contents (Elt Ideal))
    (dc : (⟨S50000x1, .f32⟩ : BufTy).Contents (Elt Ideal)) (b : (⟨S256, .f32⟩ : BufTy).Contents (Elt Ideal)) :
    (⟨S50000x256, .f32⟩ : BufTy).Contents (Elt Ideal) :=
  addf (F := Ideal) (mulf (F := Ideal) (broadcastInDim S50000x256 ![0, 1] bcast_S50000x1_S50000x256_0_1 dc)
      (addf (F := Ideal) (Host.scatterAdd scatter_S50000x256_S800000x1_S800000x256_1_0_0_1
          (broadcastInDim S50000x256 ![] bcast_S_S50000x256 (constant (F := Ideal) S_ .f32 0x00000000#32))
          (broadcastInDim S800000x1 ![0] bcast_S800000_S800000x1_0 dst)
          (extf (F := Ideal) .f32 (Host.gather gather_S50000x256_S800000x1_S800000x256_1_0_n_n_0_1_1256 A
            (broadcastInDim S800000x1 ![0] bcast_S800000_S800000x1_0
              (select (cmpi .slt src (broadcastInDim S800000 ![] bcast_S_S800000 (constantI S_ 32 0#32)))
                (addi src (broadcastInDim S800000 ![] bcast_S_S800000 (constantI S_ 32 50000#32))) src))) Facts₀.bitsLt_bf16_f32))
        (extf (F := Ideal) .f32 A Facts₀.bitsLt_bf16_f32)))
    (broadcastInDim S50000x256 ![0, 1] bcast_S1x256_S50000x256_0_1 (broadcastInDim S1x256 ![1] bcast_S256_S1x256_1 b))

/-- The last layer's host half on given words and normalisers. -/
def agg128P (A : (⟨S50000x128, .bf16⟩ : BufTy).Contents (Elt Ideal)) (src dst : (⟨S800000, .i32⟩ : BufTy).Contents (Elt Ideal))
    (dc : (⟨S50000x1, .f32⟩ : BufTy).Contents (Elt Ideal)) (b : (⟨S128, .f32⟩ : BufTy).Contents (Elt Ideal)) :
    (⟨S50000x128, .f32⟩ : BufTy).Contents (Elt Ideal) :=
  addf (F := Ideal) (mulf (F := Ideal) (broadcastInDim S50000x128 ![0, 1] bcast_S50000x1_S50000x128_0_1 dc)
      (addf (F := Ideal) (Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 dst)
          (extf (F := Ideal) .f32 (Host.gather gather_S50000x128_S800000x1_S800000x128_1_0_n_n_0_1_1128 A
            (broadcastInDim S800000x1 ![0] bcast_S800000_S800000x1_0
              (select (cmpi .slt src (broadcastInDim S800000 ![] bcast_S_S800000 (constantI S_ 32 0#32)))
                (addi src (broadcastInDim S800000 ![] bcast_S_S800000 (constantI S_ 32 50000#32))) src))) Facts₀.bitsLt_bf16_f32))
        (extf (F := Ideal) .f32 A Facts₀.bitsLt_bf16_f32)))
    (broadcastInDim S50000x128 ![0, 1] bcast_S1x128_S50000x128_0_1 (broadcastInDim S1x128 ![1] bcast_S128_S1x128_1 b))

theorem agg256P_eq (A) (ei : (⟨S2x800000, .i32⟩ : BufTy).Contents (Elt Ideal)) (b) :
    agg256P A (srcW (F := Ideal) ei) (dstW (F := Ideal) ei) (dcol (F := Ideal) ei) b = agg256 (F := Ideal) A ei b := rfl
theorem agg128P_eq (A) (ei : (⟨S2x800000, .i32⟩ : BufTy).Contents (Elt Ideal)) (b) :
    agg128P A (srcW (F := Ideal) ei) (dstW (F := Ideal) ei) (dcol (F := Ideal) ei) b = agg128 (F := Ideal) A ei b := rfl

/-- Before the first kernel call: the words, the normalisers' column, the narrowed weights. -/
theorem pre_v1 : StableHlo.after hostOps0 V (Proc.devRef .tc main_v1) = srcW (F := Ideal) (V (Proc.devRef .tc main_arg1)) := by
  after_results_simp <;> rfl
theorem pre_v3 : StableHlo.after hostOps0 V (Proc.devRef .tc main_v3) = dstW (F := Ideal) (V (Proc.devRef .tc main_arg1)) := by
  after_results_simp <;> rfl
theorem pre_v11 : StableHlo.after hostOps0 V (Proc.devRef .tc main_v11) = dcol (F := Ideal) (V (Proc.devRef .tc main_arg1)) := by
  after_results_simp <;> rfl
theorem pre_v12 : StableHlo.after hostOps0 V (Proc.devRef .tc main_v12) = truncf (F := Ideal) .bf16 (V (Proc.devRef .tc main_arg2)) Facts₀.bitsLt_bf16_f32 := by
  after_results_simp <;> rfl
theorem pre_v13 : StableHlo.after hostOps0 V (Proc.devRef .tc main_v13) = truncf (F := Ideal) .bf16 (V (Proc.devRef .tc main_arg4)) Facts₀.bitsLt_bf16_f32 := by
  after_results_simp <;> rfl
theorem pre_v14 : StableHlo.after hostOps0 V (Proc.devRef .tc main_v14) = truncf (F := Ideal) .bf16 (V (Proc.devRef .tc main_arg6)) Facts₀.bitsLt_bf16_f32 := by
  after_results_simp <;> rfl

/-- After each kernel call: the layer's host half, its rectifier, and the narrowing. -/
theorem host1 : StableHlo.after hostOps1 V (Proc.devRef .tc main_v33)
    = agg256P (V (Proc.devRef .tc main_v15)) (V (Proc.devRef .tc main_v1)) (V (Proc.devRef .tc main_v3)) (V (Proc.devRef .tc main_v11)) (V (Proc.devRef .tc main_arg3)) := by
  after_results_simp <;> rfl
theorem relu1 : StableHlo.after hostOps1_1 V (Proc.devRef .tc main_v34) = relu256 (F := Ideal) (V (Proc.devRef .tc main_v33)) := by
  after_results_simp <;> rfl
theorem narrow1 : StableHlo.after hostOps1_2 V (Proc.devRef .tc main_v35) = truncf (F := Ideal) .bf16 (V (Proc.devRef .tc main_v34)) Facts₀.bitsLt_bf16_f32 := by
  after_results_simp <;> rfl
theorem host2 : StableHlo.after hostOps2 V (Proc.devRef .tc main_v54)
    = agg256P (V (Proc.devRef .tc main_v36)) (V (Proc.devRef .tc main_v1)) (V (Proc.devRef .tc main_v3)) (V (Proc.devRef .tc main_v11)) (V (Proc.devRef .tc main_arg5)) := by
  after_results_simp <;> rfl
theorem relu2 : StableHlo.after hostOps2_1 V (Proc.devRef .tc main_v55) = relu256 (F := Ideal) (V (Proc.devRef .tc main_v54)) := by
  after_results_simp <;> rfl
theorem narrow2 : StableHlo.after hostOps2_2 V (Proc.devRef .tc main_v56) = truncf (F := Ideal) .bf16 (V (Proc.devRef .tc main_v55)) Facts₀.bitsLt_bf16_f32 := by
  after_results_simp <;> rfl
theorem host3 : StableHlo.after hostOps3 V (Proc.devRef .tc main_v75)
    = agg128P (V (Proc.devRef .tc main_v57)) (V (Proc.devRef .tc main_v1)) (V (Proc.devRef .tc main_v3)) (V (Proc.devRef .tc main_v11)) (V (Proc.devRef .tc main_arg7)) := by
  after_results_simp <;> rfl
theorem relu3 : StableHlo.after hostOps3_1 V (Proc.devRef .tc main_v76) = relu128 (F := Ideal) (V (Proc.devRef .tc main_v75)) := by
  after_results_simp <;> rfl

end Stretches

/-! ## The walk -/

variable (m : (ℓ : Loc nD τ sig) → Buf (Elt Ideal) ℓ) (ρ : Dev nD → PrngReg)

/-- The argument arrays as launched. -/
abbrev aX (c : Dev nD) : (⟨S50000x128, .f32⟩ : BufTy).Contents (Elt Ideal) := m ((c : Thread nD τ).loc main_arg0)
abbrev aE (c : Dev nD) : (⟨S2x800000, .i32⟩ : BufTy).Contents (Elt Ideal) := m ((c : Thread nD τ).loc main_arg1)
abbrev aW1 (c : Dev nD) : (⟨S128x256, .f32⟩ : BufTy).Contents (Elt Ideal) := m ((c : Thread nD τ).loc main_arg2)
abbrev aB1 (c : Dev nD) : (⟨S256, .f32⟩ : BufTy).Contents (Elt Ideal) := m ((c : Thread nD τ).loc main_arg3)
abbrev aW2 (c : Dev nD) : (⟨S256x256, .f32⟩ : BufTy).Contents (Elt Ideal) := m ((c : Thread nD τ).loc main_arg4)
abbrev aB2 (c : Dev nD) : (⟨S256, .f32⟩ : BufTy).Contents (Elt Ideal) := m ((c : Thread nD τ).loc main_arg5)
abbrev aW3 (c : Dev nD) : (⟨S256x128, .f32⟩ : BufTy).Contents (Elt Ideal) := m ((c : Thread nD τ).loc main_arg6)
abbrev aB3 (c : Dev nD) : (⟨S128, .f32⟩ : BufTy).Contents (Elt Ideal) := m ((c : Thread nD τ).loc main_arg7)

theorem w1_v1 (c : Dev nD) : W1 m ρ c (Proc.devRef .tc main_v1) = srcW (F := Ideal) (aE m c) := pre_v1 (W0 m ρ c)
theorem w1_v3 (c : Dev nD) : W1 m ρ c (Proc.devRef .tc main_v3) = dstW (F := Ideal) (aE m c) := pre_v3 (W0 m ρ c)
theorem w1_v11 (c : Dev nD) : W1 m ρ c (Proc.devRef .tc main_v11) = dcol (F := Ideal) (aE m c) := pre_v11 (W0 m ρ c)
theorem w1_v12 (c : Dev nD) : W1 m ρ c (Proc.devRef .tc main_v12) = truncf (F := Ideal) .bf16 (aW1 m c) Facts₀.bitsLt_bf16_f32 := pre_v12 (W0 m ρ c)
theorem w1_v13 (c : Dev nD) : W1 m ρ c (Proc.devRef .tc main_v13) = truncf (F := Ideal) .bf16 (aW2 m c) Facts₀.bitsLt_bf16_f32 := pre_v13 (W0 m ρ c)
theorem w1_v14 (c : Dev nD) : W1 m ρ c (Proc.devRef .tc main_v14) = truncf (F := Ideal) .bf16 (aW3 m c) Facts₀.bitsLt_bf16_f32 := pre_v14 (W0 m ρ c)

/-- The first layer's projected, normalised rows: the first kernel call's output array. -/
def P1 (c : Dev nD) : (⟨S50000x256, .bf16⟩ : BufTy).Contents (Elt Ideal) :=
  G0 (aX m c) (truncf (F := Ideal) .bf16 (aW1 m c) Facts₀.bitsLt_bf16_f32) (dcol (F := Ideal) (aE m c))
/-- The first layer's output in the narrower format. -/
def H1 (c : Dev nD) : (⟨S50000x256, .bf16⟩ : BufTy).Contents (Elt Ideal) := next256 (F := Ideal) (P1 m c) (aE m c) (aB1 m c)
def P2 (c : Dev nD) : (⟨S50000x256, .bf16⟩ : BufTy).Contents (Elt Ideal) :=
  G1 (H1 m c) (truncf (F := Ideal) .bf16 (aW2 m c) Facts₀.bitsLt_bf16_f32) (dcol (F := Ideal) (aE m c))
def H2 (c : Dev nD) : (⟨S50000x256, .bf16⟩ : BufTy).Contents (Elt Ideal) := next256 (F := Ideal) (P2 m c) (aE m c) (aB2 m c)
def P3 (c : Dev nD) : (⟨S50000x128, .bf16⟩ : BufTy).Contents (Elt Ideal) :=
  G2 (H2 m c) (truncf (F := Ideal) .bf16 (aW3 m c) Facts₀.bitsLt_bf16_f32) (dcol (F := Ideal) (aE m c))
/-- The program's result. -/
def OUT (c : Dev nD) : (⟨S50000x128, .f32⟩ : BufTy).Contents (Elt Ideal) := relu128 (F := Ideal) (agg128 (F := Ideal) (P3 m c) (aE m c) (aB3 m c))

theorem e15 (c : Dev nD) : W2 m ρ c (Proc.devRef .tc main_v15) = P1 m c := by
  refine ((W2_arr m ρ c 3).trans (region0_value (V1 m ρ) c)).trans ?_
  show G0 (W1 m ρ c (Proc.devRef .tc main_arg0)) (W1 m ρ c (Proc.devRef .tc main_v12)) (W1 m ρ c (Proc.devRef .tc main_v11)) = _
  rw [launch_arg0 m ρ c, w1_v12 m ρ c, w1_v11 m ρ c]; rfl

theorem e33 (c : Dev nD) : W3 m ρ c (Proc.devRef .tc main_v33) = agg256 (F := Ideal) (P1 m c) (aE m c) (aB1 m c) := by
  refine (host1 (W2 m ρ c)).trans ?_
  rw [e15 m ρ c, keep2_v1 m ρ c, keep2_v3 m ρ c, keep2_v11 m ρ c, keep2_arg3 m ρ c, w1_v1 m ρ c, w1_v3 m ρ c, w1_v11 m ρ c, launch_arg3 m ρ c]
  exact agg256P_eq _ _ _

theorem e35 (c : Dev nD) : W5 m ρ c (Proc.devRef .tc main_v35) = H1 m c := by
  refine (narrow1 (W4 m ρ c)).trans ?_
  have h34 : W4 m ρ c (Proc.devRef .tc main_v34) = relu256 (F := Ideal) (agg256 (F := Ideal) (P1 m c) (aE m c) (aB1 m c)) :=
    (relu1 (W3 m ρ c)).trans (by rw [e33 m ρ c])
  rw [h34]; rfl

theorem e36 (c : Dev nD) : W6 m ρ c (Proc.devRef .tc main_v36) = P2 m c := by
  refine ((W6_arr m ρ c 3).trans (region1_value (V5 m ρ) c)).trans ?_
  show G1 (W5 m ρ c (Proc.devRef .tc main_v35)) (W5 m ρ c (Proc.devRef .tc main_v13)) (W5 m ρ c (Proc.devRef .tc main_v11)) = _
  rw [e35 m ρ c, keep5_v13 m ρ c, keep5_v11 m ρ c, w1_v13 m ρ c, w1_v11 m ρ c]; rfl

theorem e54 (c : Dev nD) : W7 m ρ c (Proc.devRef .tc main_v54) = agg256 (F := Ideal) (P2 m c) (aE m c) (aB2 m c) := by
  refine (host2 (W6 m ρ c)).trans ?_
  rw [e36 m ρ c, keep6_v1 m ρ c, keep6_v3 m ρ c, keep6_v11 m ρ c, keep6_arg5 m ρ c, w1_v1 m ρ c, w1_v3 m ρ c, w1_v11 m ρ c, launch_arg5 m ρ c]
  exact agg256P_eq _ _ _

theorem e56 (c : Dev nD) : W9 m ρ c (Proc.devRef .tc main_v56) = H2 m c := by
  refine (narrow2 (W8 m ρ c)).trans ?_
  have h55 : W8 m ρ c (Proc.devRef .tc main_v55) = relu256 (F := Ideal) (agg256 (F := Ideal) (P2 m c) (aE m c) (aB2 m c)) :=
    (relu2 (W7 m ρ c)).trans (by rw [e54 m ρ c])
  rw [h55]; rfl

theorem e57 (c : Dev nD) : W10 m ρ c (Proc.devRef .tc main_v57) = P3 m c := by
  refine ((W10_arr m ρ c 3).trans (region2_value (V9 m ρ) c)).trans ?_
  show G2 (W9 m ρ c (Proc.devRef .tc main_v56)) (W9 m ρ c (Proc.devRef .tc main_v14)) (W9 m ρ c (Proc.devRef .tc main_v11)) = _
  rw [e56 m ρ c, keep9_v14 m ρ c, keep9_v11 m ρ c, w1_v14 m ρ c, w1_v11 m ρ c]; rfl

theorem e75 (c : Dev nD) : W11 m ρ c (Proc.devRef .tc main_v75) = agg128 (F := Ideal) (P3 m c) (aE m c) (aB3 m c) := by
  refine (host3 (W10 m ρ c)).trans ?_
  rw [e57 m ρ c, keep10_v1 m ρ c, keep10_v3 m ρ c, keep10_v11 m ρ c, keep10_arg7 m ρ c, w1_v1 m ρ c, w1_v3 m ρ c, w1_v11 m ρ c, launch_arg7 m ρ c]
  exact agg128P_eq _ _ _

/-- THE RESULT BUFFER at the last boundary is the three layers composed. -/
theorem result_value (c : Dev nD) : W12 m ρ c (Proc.devRef .tc main_v76) = OUT m c :=
  (relu3 (W11 m ρ c)).trans (by rw [e75 m ρ c]; rfl)

end Cert.KernelIdeal.Chain

end
-- ==== Proof.LibGatherScatter.lean ====
/-
  GATHER AND SCATTER BY ROWS, READ AT AN INDEX.

  The four index layouts that an integer column of row numbers `idx : [E, 1]` gives rise to:

  * gathering `E` elements of a flat array `[N]` (`dimsG1`, `gather_elems_apply`);
  * gathering `E` rows of a matrix `[N, D]` (`dimsG2`, `gather_rows_apply`);
  * scattering `E` elements into a flat array `[N]` (`dimsS1`, `scatter_elems_resultIdx_iff`);
  * scattering `E` rows into a matrix `[N, D]` (`dimsS2`, `scatter_rows_resultIdx_iff`).

  A gather reads its row number SIGNED and CLAMPED into `[0, N - 1]`; a scatter reads it SIGNED and NOT clamped, and
  drops the update when the row number is outside `[0, N)`. So whenever an update lands at all, the row number is a
  natural number below `N`, and the gather's clamp leaves it alone (`clamp_of_scatter_rows`,
  `clamp_of_scatter_elems`).

  Everything is generic in the extents `N E D`, in the index word's width `w` and in the element type.
-/
import Idealize.ShloMosaic.Lib.ValueIdx

namespace Idealize.ShloMosaic.GatherScatterIdx

open Idealize.ShloMosaic Idealize.ShloMosaic.ValueIdx

/-! ## Gathering rows of a matrix -/

section GatherRows
variable {α : Type}

/-- The dimension numbers of a gather of `E` whole rows of a matrix `[N, D]` at a column of row numbers `[E, 1]`:
    the result's axis 1 is the offset axis, the operand's axis 0 is collapsed and is the one the row number addresses,
    a slice is one row `[1, D]`. -/
abbrev dimsG2 (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, c)`: the operand at row `idx[e, 0]`, read signed and clamped into `[0, N - 1]`,
    and column `c`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (dimsG2 N E D wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ =>
    show (dimsG2 N E D wf).start y idx 0 + (dimsG2 N E D wf).batchCoord y 0 + (dimsG2 N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dimsG2 N E D wf).startIndexMap from List.mem_singleton.mpr rfl)]
    have hsi : (dimsG2 N E D wf).siIdx y ⟨List.idxOf (0 : Fin 2) (dimsG2 N E D wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    show (dimsG2 N E D wf).start y idx 1 + (dimsG2 N E D wf).batchCoord y 1 + (dimsG2 N E D wf).offCoord y 1 = (y 1).val
    rw [GatherDims.batchCoord_eq_zero _ _ _ List.not_mem_nil]
    have hst : (dimsG2 N E D wf).start y idx 1 = 0 := by
      unfold GatherDims.start
      rw [dif_neg (show (1 : Fin 2) ∉ (dimsG2 N E D wf).startIndexMap from (by decide : (1 : Fin 2) ∉ ([0] : List (Fin 2))))]
    have hmem : (1 : Fin 2) ∈ (dimsG2 N E D wf).sKept :=
      (GatherDims.mem_sKept _ _).mpr ⟨(by decide : (1 : Fin 2) ∉ ([0] : List (Fin 2))), List.not_mem_nil⟩
    have hoff : (dimsG2 N E D wf).offCoord y 1 = (y 1).val := by
      unfold GatherDims.offCoord
      rw [dif_pos hmem]
      rfl
    rw [hst, hoff]; simp only [Nat.zero_add, Nat.add_zero]

/-- The same, for any dimension numbers that ARE those of a row gather. -/
theorem gather_rows_apply' {N E D w : Nat} (hN : 0 < N)
    (wf : GatherDims.WF ⟨2, ![N, D]⟩ ⟨2, ![E, 1]⟩ ⟨2, ![E, D]⟩ [1] [0] [] [0] [] 1 ![1, D])
    (d : GatherDims ⟨2, ![N, D]⟩ ⟨2, ![E, 1]⟩ ⟨2, ![E, D]⟩) (hd : d = dimsG2 N E D wf)
    (x : (⟨2, ![N, D]⟩ : Shape).Idx → α) (idx : IVec ⟨2, ![E, 1]⟩ w) (y : (⟨2, ![E, D]⟩ : Shape).Idx) :
    Host.gather d x idx y
      = x (ix2 ⟨min (idx (ix2 (y 0) ⟨0, Nat.one_pos⟩)).toInt.toNat (N - 1), by omega⟩ (y 1)) := by
  subst hd; exact gather_rows_apply hN wf x idx y

end GatherRows

/-! ## Scattering rows into a matrix -/

section ScatterRows

/-- The dimension numbers of a scatter of `E` whole rows `[E, D]` into a matrix `[N, D]` at a column of row numbers
    `[E, 1]`: the updates' axis 1 is the window axis, the operand's axis 0 is inserted and is the one the row number
    addresses. -/
abbrev dimsS2 (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- WHERE A ROW SCATTER'S UPDATE `(e, c)` LANDS: at `(r, c')` exactly when the row number `idx[e, 0]`, read signed,
    is `r` and `c = c'`. -/
theorem scatter_rows_resultIdx_iff {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (dimsS2 N E D wf).resultIdx? j idx = some i
      ↔ (idx (ix2 (j 0) ⟨0, Nat.one_pos⟩)).toInt = ((i 0).val : Int) ∧ (j 1).val = (i 1).val := by
  have hs0 : (dimsS2 N E D wf).start j idx 0 = (idx (ix2 (j 0) ⟨0, Nat.one_pos⟩)).toInt := by
    unfold ScatterDims.start
    rw [dif_pos (show (0 : Fin 2) ∈ (dimsS2 N E D wf).scatterDimsToOperandDims from List.mem_singleton.mpr rfl)]
    have hsi : (dimsS2 N E D wf).siIdx j ⟨List.idxOf (0 : Fin 2) (dimsS2 N E D wf).scatterDimsToOperandDims,
        List.idxOf_lt_length_iff.2 (List.mem_singleton.mpr rfl)⟩ = ix2 (j 0) ⟨0, Nat.one_pos⟩ := by
      funext b; refine Fin.ext ?_
      match b with
      | ⟨0, _⟩ => rfl
      | ⟨1, _⟩ => rfl
    exact congrArg (fun v => (idx v).toInt) hsi
  have hs1 : (dimsS2 N E D wf).start j idx 1 = 0 := by
    unfold ScatterDims.start
    rw [dif_neg (show (1 : Fin 2) ∉ (dimsS2 N E D wf).scatterDimsToOperandDims from (by decide : (1 : Fin 2) ∉ ([0] : List (Fin 2))))]
  have hw0 : (dimsS2 N E D wf).window j 0 = 0 := by
    unfold ScatterDims.window
    rw [dif_neg (show (0 : Fin 2) ∉ (dimsS2 N E D wf).sKept from
      (by decide : (0 : Fin 2) ∉ (List.finRange 2).filter (fun a => a ∉ ([0] : List (Fin 2)))))]
  have hw1 : (dimsS2 N E D wf).window j 1 = (j 1).val := by
    unfold ScatterDims.window
    rw [dif_pos (show (1 : Fin 2) ∈ (dimsS2 N E D wf).sKept from
      (by decide : (1 : Fin 2) ∈ (List.finRange 2).filter (fun a => a ∉ ([0] : List (Fin 2)))))]
    rfl
  have hi0 := idx2_lt0 i
  have hi1 := idx2_lt1 i
  have hj1 := idx2_lt1 j
  unfold ScatterDims.resultIdx?
  split
  · rename_i h
    rw [Option.some.injEq]
    constructor
    · intro he
      have e0 := congrArg (fun f => (f 0).val) he
      have e1 := congrArg (fun f => (f 1).val) he
      simp only [hs0, hs1, hw0, hw1] at e0 e1
      have h0 := h 0
      rw [hs0, hw0] at h0
      constructor
      · omega
      · omega
    · rintro ⟨e0, e1⟩
      funext a; refine Fin.ext ?_
      match a with
      | ⟨0, _⟩ =>
        show ((dimsS2 N E D wf).start j idx 0 + ((dimsS2 N E D wf).window j 0 : Int)).toNat = (i 0).val
        rw [hs0, hw0]; omega
      | ⟨1, _⟩ =>
        show ((dimsS2 N E D wf).start j idx 1 + ((dimsS2 N E D wf).window j 1 : Int)).toNat = (i 1).val
        rw [hs1, hw1]; omega
  · rename_i h
    constructor
    · intro he; exact absurd he (by simp)
    · rintro ⟨e0, e1⟩
      exfalso; apply h
      intro a
      match a with
      | ⟨0, _⟩ =>
        show 0 ≤ (dimsS2 N E D wf).start j idx 0 + ((dimsS2 N E D wf).window j 0 : Int) ∧
          (dimsS2 N E D wf).start j idx 0 + ((dimsS2 N E D wf).window j 0 : Int) < (N : Int)
        rw [hs0, hw0]; omega
      | ⟨1, _⟩ =>
        show 0 ≤ (dimsS2 N E D wf).start j idx 1 + ((dimsS2 N E D wf).window j 1 : Int) ∧
          (dimsS2 N E D wf).start j idx 1 + ((dimsS2 N E D wf).window j 1 : Int) < (D : Int)
        rw [hs1, hw1]; omega

/-- The same, for any dimension numbers that ARE those of a row scatter. -/
theorem scatter_rows_resultIdx_iff' {N E D w : Nat}
    (wf : ScatterDims.WF ⟨2, ![N, D]⟩ ⟨2, ![E, 1]⟩ ⟨2, ![E, D]⟩ [1] [0] [0] 1)
    (d : ScatterDims ⟨2, ![N, D]⟩ ⟨2, ![E, 1]⟩ ⟨2, ![E, D]⟩) (hd : d = dimsS2 N E D wf)
    (idx : IVec ⟨2, ![E, 1]⟩ w) (j : (⟨2, ![E, D]⟩ : Shape).Idx) (i : (⟨2, ![N, D]⟩ : Shape).Idx) :
    d.resultIdx? j idx = some i
      ↔ (idx (ix2 (j 0) ⟨0, Nat.one_pos⟩)).toInt = ((i 0).val : Int) ∧ (j 1).val = (i 1).val := by
  subst hd; exact scatter_rows_resultIdx_iff wf idx j i

/-- A row number at which an update lands is not negative … -/
theorem nonneg_of_scatter_rows {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (dimsS2 N E D wf).resultIdx? j idx = some i) :
    ¬ (idx (ix2 (j 0) ⟨0, Nat.one_pos⟩)).toInt < 0 := by
  have h0 := ((scatter_rows_resultIdx_iff wf idx j i).mp h).1
  omega

/-- … and the gather's clamp into `[0, N - 1]` leaves it alone: the clamped row is the row the update lands on. -/
theorem clamp_of_scatter_rows {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (dimsS2 N E D wf).resultIdx? j idx = some i) :
    min (idx (ix2 (j 0) ⟨0, Nat.one_pos⟩)).toInt.toNat (N - 1) = (i 0).val := by
  have h0 := ((scatter_rows_resultIdx_iff wf idx j i).mp h).1
  have hi0 := idx2_lt0 i
  omega

end ScatterRows

/-! ## Gathering elements of a flat array -/

section GatherElems
variable {α : Type}

/-- The dimension numbers of a gather of `E` elements of a flat array `[N]` at a column of positions `[E, 1]`: no
    offset axis, the operand's one axis is collapsed and is the one the position addresses, a slice is one element. -/
abbrev dimsG1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at position `idx[e, 0]`, read signed and clamped into
    `[0, N - 1]`. -/
theorem gather_elems_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (dimsG1 N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (dimsG1 N E wf).start y idx 0 + (dimsG1 N E wf).batchCoord y 0 + (dimsG1 N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dimsG1 N E wf).startIndexMap from List.mem_singleton.mpr rfl)]
  have hsi : (dimsG1 N E wf).siIdx y ⟨List.idxOf (0 : Fin 1) (dimsG1 N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- The same, for any dimension numbers that ARE those of an element gather. -/
theorem gather_elems_apply' {N E w : Nat} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = dimsG1 N E wf)
    (x : (⟨1, ![N]⟩ : Shape).Idx → α) (idx : IVec ⟨2, ![E, 1]⟩ w) (y : (⟨1, ![E]⟩ : Shape).Idx) :
    Host.gather d x idx y
      = x (ix1 ⟨min (idx (ix2 (y 0) ⟨0, Nat.one_pos⟩)).toInt.toNat (N - 1), by omega⟩) := by
  subst hd; exact gather_elems_apply hN wf x idx y

end GatherElems

/-! ## Scattering elements into a flat array -/

section ScatterElems

/-- The dimension numbers of a scatter of `E` elements `[E]` into a flat array `[N]` at a column of positions `[E, 1]`:
    no window axis, the operand's one axis is inserted and is the one the position addresses. -/
abbrev dimsS1 (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- WHERE AN ELEMENT SCATTER'S UPDATE `e` LANDS: at `r` exactly when the position `idx[e, 0]`, read signed, is `r`. -/
theorem scatter_elems_resultIdx_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (dimsS1 N E wf).resultIdx? j idx = some i
      ↔ (idx (ix2 (j 0) ⟨0, Nat.one_pos⟩)).toInt = ((i 0).val : Int) := by
  have hs0 : (dimsS1 N E wf).start j idx 0 = (idx (ix2 (j 0) ⟨0, Nat.one_pos⟩)).toInt := by
    unfold ScatterDims.start
    rw [dif_pos (show (0 : Fin 1) ∈ (dimsS1 N E wf).scatterDimsToOperandDims from List.mem_singleton.mpr rfl)]
    have hsi : (dimsS1 N E wf).siIdx j ⟨List.idxOf (0 : Fin 1) (dimsS1 N E wf).scatterDimsToOperandDims,
        List.idxOf_lt_length_iff.2 (List.mem_singleton.mpr rfl)⟩ = ix2 (j 0) ⟨0, Nat.one_pos⟩ := by
      funext b; refine Fin.ext ?_
      match b with
      | ⟨0, _⟩ => rfl
      | ⟨1, _⟩ => rfl
    exact congrArg (fun v => (idx v).toInt) hsi
  have hw0 : (dimsS1 N E wf).window j 0 = 0 := by
    unfold ScatterDims.window
    rw [dif_neg (show (0 : Fin 1) ∉ (dimsS1 N E wf).sKept from
      (by decide : (0 : Fin 1) ∉ (List.finRange 1).filter (fun a => a ∉ ([0] : List (Fin 1)))))]
  have hi0 : (i 0).val < N := (i 0).isLt
  unfold ScatterDims.resultIdx?
  split
  · rename_i h
    rw [Option.some.injEq]
    constructor
    · intro he
      have e0 := congrArg (fun f => (f 0).val) he
      simp only [hs0, hw0] at e0
      have h0 := h 0
      rw [hs0, hw0] at h0
      omega
    · intro e0
      funext a
      obtain rfl : a = 0 := Subsingleton.elim _ _
      refine Fin.ext ?_
      show ((dimsS1 N E wf).start j idx 0 + ((dimsS1 N E wf).window j 0 : Int)).toNat = (i 0).val
      rw [hs0, hw0]; omega
  · rename_i h
    constructor
    · intro he; exact absurd he (by simp)
    · intro e0
      exfalso; apply h
      intro a
      obtain rfl : a = 0 := Subsingleton.elim _ _
      show 0 ≤ (dimsS1 N E wf).start j idx 0 + ((dimsS1 N E wf).window j 0 : Int) ∧
        (dimsS1 N E wf).start j idx 0 + ((dimsS1 N E wf).window j 0 : Int) < (N : Int)
      rw [hs0, hw0]; omega

/-- The same, for any dimension numbers that ARE those of an element scatter. -/
theorem scatter_elems_resultIdx_iff' {N E w : Nat}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = dimsS1 N E wf)
    (idx : IVec ⟨2, ![E, 1]⟩ w) (j : (⟨1, ![E]⟩ : Shape).Idx) (i : (⟨1, ![N]⟩ : Shape).Idx) :
    d.resultIdx? j idx = some i
      ↔ (idx (ix2 (j 0) ⟨0, Nat.one_pos⟩)).toInt = ((i 0).val : Int) := by
  subst hd; exact scatter_elems_resultIdx_iff wf idx j i

/-- A position at which an update lands is not negative … -/
theorem nonneg_of_scatter_elems {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx)
    (h : (dimsS1 N E wf).resultIdx? j idx = some i) :
    ¬ (idx (ix2 (j 0) ⟨0, Nat.one_pos⟩)).toInt < 0 := by
  have h0 := (scatter_elems_resultIdx_iff wf idx j i).mp h
  omega

/-- … and the gather's clamp into `[0, N - 1]` leaves it alone: the clamped position is where the update lands. -/
theorem clamp_of_scatter_elems {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx)
    (h : (dimsS1 N E wf).resultIdx? j idx = some i) :
    min (idx (ix2 (j 0) ⟨0, Nat.one_pos⟩)).toInt.toNat (N - 1) = (i 0).val := by
  have h0 := (scatter_elems_resultIdx_iff wf idx j i).mp h
  have hi0 : (i 0).val < N := (i 0).isLt
  omega

end ScatterElems

end Idealize.ShloMosaic.GatherScatterIdx
-- ==== Proof.LibGcnAlgebra.lean ====
/-
  The algebra that joins the two arrangements of a graph-convolution layer, on the extended reals.

  One arrangement scales every gathered row by the source node's normaliser, sums the rows that arrive at a
  node, adds the node's own scaled row and multiplies the total by the node's normaliser:
      c · ((0 + ∑ u, a u · p u) + a₀ · c).
  The other multiplies every gathered row by the product of both endpoints' normalisers before summing, and the
  node's own row by the square of its normaliser:
      (0 + ∑ u, a u · (p u · q u)) + a₀ · (c · c),        with q u = c for every edge u arriving at the node.
  They agree because multiplication by a NON-NEGATIVE REAL distributes over sums of arbitrary extended reals
  (an infinite term keeps its sign under such a factor), and multiplication is commutative and associative;
  no entry of the gathered rows needs to be finite.  The normaliser is the inverse square root of one plus an
  edge count, a positive real, so it is such a factor.
-/
import Idealize.ShloMosaic.PureOps.Ideal
import Idealize.ShloMosaic.PureOps.Ideal.Laws
import Idealize.ShloMosaic.Lib.IdealHost

noncomputable section

namespace Idealize.ShloMosaic.GcnAlgebra

variable {ι : Type}

/-- A non-negative extended real other than `⊤` distributes over a finite sum. -/
theorem mul_sum_of_nonneg_of_ne_top (c : EReal) (h0 : 0 ≤ c) (ht : c ≠ ⊤) (s : Finset ι) (f : ι → EReal) :
    c * ∑ u ∈ s, f u = ∑ u ∈ s, c * f u := by
  classical
  refine Finset.induction_on s ?_ ?_
  · simp
  · intro a s ha ih
    rw [Finset.sum_insert ha, Finset.sum_insert ha, EReal.left_distrib_of_nonneg_of_ne_top h0 ht, ih]

/-- The two arrangements of one entry of a layer agree: scaling by the target's normaliser `c` after the sum, or
    by the product of both normalisers inside it. -/
theorem layer_entry (c : EReal) (h0 : 0 ≤ c) (ht : c ≠ ⊤) (s : Finset ι) (a p q : ι → EReal) (a₀ bias : EReal)
    (hq : ∀ u ∈ s, q u = c) :
    max (c * ((0 + ∑ u ∈ s, a u * p u) + a₀ * c) + bias) 0
      = max (((0 + ∑ u ∈ s, a u * (p u * q u)) + a₀ * (c * c)) + bias) 0 := by
  have e : c * ((0 + ∑ u ∈ s, a u * p u) + a₀ * c) = (0 + ∑ u ∈ s, a u * (p u * q u)) + a₀ * (c * c) := by
    rw [zero_add, zero_add, EReal.left_distrib_of_nonneg_of_ne_top h0 ht, mul_sum_of_nonneg_of_ne_top c h0 ht]
    congr 1
    · refine Finset.sum_congr rfl fun u hu => ?_
      rw [hq u hu, mul_comm c, mul_assoc]
    · rw [mul_comm c, mul_assoc]
  rw [e]

/-- The normaliser of a node — the inverse square root of one plus the number of edges arriving at it — is a
    non-negative extended real other than `⊤`. -/
theorem rsqrt_count (s : Finset ι) :
    0 ≤ Ideal.rsqrt ((0 + ∑ _u ∈ s, (1 : EReal)) + 1) ∧ Ideal.rsqrt ((0 + ∑ _u ∈ s, (1 : EReal)) + 1) ≠ ⊤ := by
  have e : ((0 : EReal) + ∑ _u ∈ s, (1 : EReal)) + 1 = (((s.card : ℝ) + 1 : ℝ) : EReal) := by
    rw [zero_add, Finset.sum_const, nsmul_one]
    push_cast
    rfl
  have hpos : (0 : ℝ) < (s.card : ℝ) + 1 := by positivity
  rw [e, Ideal.rsqrt_coe, if_neg (not_lt.mpr hpos.le), if_neg hpos.ne']
  exact ⟨EReal.coe_nonneg.mpr (inv_nonneg.mpr (Real.sqrt_nonneg _)), EReal.coe_ne_top _⟩

end Idealize.ShloMosaic.GcnAlgebra

end
-- ==== Proof.GcnSpec.lean ====
/-
  One graph-convolution layer over N nodes and E edges, in two arrangements, and their agreement.

  An edge is a position `e < E` of two arrays of index words: `sidx` (the source, already wrapped) and `didx` (the
  target, as given).  A gather reads row `row sidx e`: the word read as a signed integer and clamped into
  `[0, N − 1]`.  An accumulating scatter adds update entry `u = (e, q)` to entry `(p, q)` of its operand exactly when
  the target word of `e`, read signed and NOT clamped, is `p`; `land2 … p q` is the set of those update entries, and
  `land1 … p` the set of edges arriving at node `p`.  The normaliser of node `p` is
  `dinv p = (1 + #{edges arriving at p})^(-1/2)`.

  With `a = h · W` the projected features (any extended reals), a layer's entry `(p, q)` is, in the arrangement that
  scales on the nodes,
      max (dinv p · ((0 + ∑_{u ∈ land2 p q} a (row sidx u₀) u₁ · dinv (row sidx u₀)) + a p q · dinv p) + b q) 0
  and, in the arrangement that scales on the edges, with `widx` the wrapped target words,
      max (((0 + ∑_{u ∈ land2 p q} a (row sidx u₀) u₁ · (dinv (row sidx u₀) · dinv (row widx u₀))) + a p q · (dinv p · dinv p)) + b q) 0.
  An edge that lands on `(p, q)` has a non-negative target word equal to `p < N`; wrapping leaves such a word alone
  and clamping it gives `p`, so `row widx u₀ = p` on `land2 p q`, and the two entries agree by `GcnAlgebra.layer_entry`.
-/
import Idealize.ShloMosaic.Lib.ValueIdx
import Idealize.ShloMosaic.PureOps.Ideal
import proofs.«137940_j67774583931071_2_alg».proof.Proof.LibGatherScatter
import proofs.«137940_j67774583931071_2_alg».proof.Proof.LibGcnAlgebra

noncomputable section

namespace Idealize.ShloMosaic.GcnSpec

open Idealize.ShloMosaic Idealize.ShloMosaic.ValueIdx Idealize.ShloMosaic.GatherScatterIdx

variable {N E D K : ℕ}

/-- The well-formedness of the dimension numbers of a scatter of `[E]` values into `[N]` at `[E, 1]` indices. -/
abbrev WF1 (N E : ℕ) : Prop := ScatterDims.WF ⟨1, ![N]⟩ ⟨2, ![E, 1]⟩ ⟨1, ![E]⟩ [] [0] [0] 1
/-- The well-formedness of the dimension numbers of a scatter of `[E, D]` rows into `[N, D]` at `[E, 1]` indices. -/
abbrev WF2 (N E D : ℕ) : Prop := ScatterDims.WF ⟨2, ![N, D]⟩ ⟨2, ![E, 1]⟩ ⟨2, ![E, D]⟩ [1] [0] [0] 1

/-- The row a gather reads for edge `e`: its index word read signed and clamped into `[0, N − 1]`. -/
def row (hN : 0 < N) (idx : IVec ⟨2, ![E, 1]⟩ 32) (e : Fin E) : Fin N :=
  ⟨min (idx (ix2 e ⟨0, Nat.one_pos⟩)).toInt.toNat (N - 1), by omega⟩

/-- The update entries an accumulating scatter of `[E, D]` rows adds to entry `(p, q)`. -/
def land2 (wf : WF2 N E D) (didx : IVec ⟨2, ![E, 1]⟩ 32)
    (p : Fin N) (q : Fin D) : Finset (⟨2, ![E, D]⟩ : Shape).Idx :=
  Finset.univ.filter fun u => (dimsS2 N E D wf).resultIdx? u didx = some (ix2 p q)

/-- The edges an accumulating scatter of `[E]` values adds to node `p`. -/
def land1 (wf : WF1 N E) (didx : IVec ⟨2, ![E, 1]⟩ 32)
    (p : Fin N) : Finset (⟨1, ![E]⟩ : Shape).Idx :=
  Finset.univ.filter fun u => (dimsS1 N E wf).resultIdx? u didx = some (ix1 p)

/-- The normaliser of node `p`: the inverse square root of one plus the number of edges arriving at it. -/
def dinv (wf : WF1 N E) (didx : IVec ⟨2, ![E, 1]⟩ 32) (p : Fin N) : EReal :=
  Ideal.rsqrt ((0 + ∑ _u ∈ land1 wf didx p, (1 : EReal)) + 1)

theorem dinv_nonneg (wf : WF1 N E) (didx : IVec ⟨2, ![E, 1]⟩ 32) (p : Fin N) : 0 ≤ dinv (N := N) wf didx p :=
  (GcnAlgebra.rsqrt_count _).1
theorem dinv_ne_top (wf : WF1 N E) (didx : IVec ⟨2, ![E, 1]⟩ 32) (p : Fin N) : dinv (N := N) wf didx p ≠ ⊤ :=
  (GcnAlgebra.rsqrt_count _).2

/-- The projection `h · W`. -/
def mm (h : Fin N → Fin K → EReal) (W : Fin K → Fin D → EReal) : Fin N → Fin D → EReal :=
  fun p q => ∑ k : Fin K, h p k * W k q

/-- A layer, scaling on the nodes (before the gather and after the sum). -/
def layerK (hN : 0 < N) (wf1 : WF1 N E) (wf2 : WF2 N E D)
    (didx sidx : IVec ⟨2, ![E, 1]⟩ 32) (a : Fin N → Fin D → EReal) (b : Fin D → EReal) : Fin N → Fin D → EReal :=
  fun p q => max (dinv wf1 didx p * ((0 + ∑ u ∈ land2 wf2 didx p q,
      a (row hN sidx (u 0)) (u 1) * dinv wf1 didx (row hN sidx (u 0))) + a p q * dinv wf1 didx p) + b q) 0

/-- A layer, scaling on the edges (inside the sum) and the node's own row by the square. -/
def layerR (hN : 0 < N) (wf1 : WF1 N E) (wf2 : WF2 N E D)
    (didx sidx widx : IVec ⟨2, ![E, 1]⟩ 32) (a : Fin N → Fin D → EReal) (b : Fin D → EReal) : Fin N → Fin D → EReal :=
  fun p q => max (((0 + ∑ u ∈ land2 wf2 didx p q,
      a (row hN sidx (u 0)) (u 1) * (dinv wf1 didx (row hN sidx (u 0)) * dinv wf1 didx (row hN widx (u 0))))
      + a p q * (dinv wf1 didx p * dinv wf1 didx p)) + b q) 0

/-- The two arrangements agree, when wrapping leaves every non-negative target word alone. -/
theorem layerK_eq_layerR (hN : 0 < N) (wf1 : WF1 N E) (wf2 : WF2 N E D)
    (didx sidx widx : IVec ⟨2, ![E, 1]⟩ 32)
    (hw : ∀ e : Fin E, ¬ (didx (ix2 e ⟨0, Nat.one_pos⟩)).toInt < 0 → widx (ix2 e ⟨0, Nat.one_pos⟩) = didx (ix2 e ⟨0, Nat.one_pos⟩))
    (a : Fin N → Fin D → EReal) (b : Fin D → EReal) :
    layerK hN wf1 wf2 didx sidx a b = layerR hN wf1 wf2 didx sidx widx a b := by
  funext p q
  unfold layerK layerR
  refine GcnAlgebra.layer_entry (dinv wf1 didx p) (dinv_nonneg wf1 didx p) (dinv_ne_top wf1 didx p) _ _ _ _ _ _ fun u hu => ?_
  have hm : (dimsS2 N E D wf2).resultIdx? u didx = some (ix2 p q) := (Finset.mem_filter.mp hu).2
  have h0 := nonneg_of_scatter_rows wf2 didx u (ix2 p q) hm
  have hc := clamp_of_scatter_rows wf2 didx u (ix2 p q) hm
  have hr : row hN widx (u 0) = p := by
    unfold row
    refine Fin.ext ?_
    show min (widx (ix2 (u 0) ⟨0, Nat.one_pos⟩)).toInt.toNat (N - 1) = p.val
    rw [hw (u 0) h0]
    exact hc
  rw [hr]

end Idealize.ShloMosaic.GcnSpec

end
-- ==== Proof.KHost.lean ====
/-
  The host operations of the kernel program, read at an index, at the ideal values.

  The normaliser column at node `p` is `(1 + #{edges arriving at p})^(-1/2)`: the accumulating scatter of ones into zeros
  counts the edges whose target word, read signed, is `p`.  A layer's host half at `(p, q)`, given that the kernel's
  result `A` is the projected features already scaled by the normaliser of their row, is the layer in the arrangement
  that scales on the nodes: the gather reads row `row sidx e` of `A` for edge `e`, the scatter adds it to every node
  the edge arrives at, the node's own row is added, the sum is scaled by the normaliser, the bias is added, and the
  result is rectified.  Handing on in the narrower format changes nothing at the ideal values.
-/
import proofs.«137940_j67774583931071_2_alg».proof.Proof.KHostDefs
import proofs.«137940_j67774583931071_2_alg».proof.Proof.GcnSpec
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.HostValue

open Cert.KernelIdeal Cert.KernelIdeal.Facts₀ Idealize.ShloMosaic Idealize.ShloMosaic.ValueIdx
open Idealize.ShloMosaic.GatherScatterIdx
open scoped BigOperators

/-- There is a node. -/
theorem hN : 0 < 50000 := by decide
/-- The three scatters' dimension numbers are well formed. -/
abbrev wf1 : GcnSpec.WF1 50000 800000 := Facts₀.scatter_S50000_S800000x1_S800000_n_0_0_1_wf
abbrev wf256 : GcnSpec.WF2 50000 800000 256 := Facts₀.scatter_S50000x256_S800000x1_S800000x256_1_0_0_1_wf
abbrev wf128 : GcnSpec.WF2 50000 800000 128 := Facts₀.scatter_S50000x128_S800000x1_S800000x128_1_0_0_1_wf

/-! ## The operations read at an index -/

section Auxiliary
variable {s si u : Shape} {φ : FTy} {w : Nat}

/-- The host's inverse square root at an index is the inverse square root of the element. -/
theorem rsqrt_apply (x : FVec Ideal s φ) (i : s.Idx) : Host.rsqrt x i = Ideal.rsqrt (x i) := rfl

/-- The host's accumulating scatter at an index: the operand there plus the sum of the updates that land there. -/
theorem scatterAdd_apply (d : ScatterDims s si u) (x : FVec Ideal s φ) (idx : IVec si w) (upd : FVec Ideal u φ)
    (i : s.Idx) :
    Host.scatterAdd d x idx upd i = x i + ∑ j ∈ Finset.univ.filter (fun j => d.resultIdx? j idx = some i), upd j := rfl

/-- A broadcast scalar zero reads zero everywhere … -/
theorem bcast_zero_apply {t : Shape} (h : S_.BroadcastsInDim t ![]) (j : t.Idx) :
    broadcastInDim t ![] h (constant (F := Ideal) S_ .f32 0x00000000#32) j = 0 := Ideal.ofBits_zero_f32
/-- … and a broadcast scalar one reads one. -/
theorem bcast_one_apply {t : Shape} (h : S_.BroadcastsInDim t ![]) (j : t.Idx) :
    broadcastInDim t ![] h (constant (F := Ideal) S_ .f32 0x3F800000#32) j = 1 := Ideal.ofBits_one_f32

end Auxiliary

/-- The scatter of edge values into the nodes, at node `p`: the operand there plus the sum over the edges arriving at `p`. -/
theorem scatterAdd1_apply (x : FVec Ideal S50000 .f32) (idx : IVec S800000x1 32) (upd : FVec Ideal S800000 .f32) (p : Fin 50000) :
    Host.scatterAdd scatter_S50000_S800000x1_S800000_n_0_0_1 x idx upd (ix1 p)
      = x (ix1 p) + ∑ j ∈ GcnSpec.land1 wf1 idx p, upd j := rfl
/-- The scatter of edge rows into the node rows over 256 features, at `(p, q)`. -/
theorem scatterAdd256_apply (x : FVec Ideal S50000x256 .f32) (idx : IVec S800000x1 32) (upd : FVec Ideal S800000x256 .f32)
    (p : Fin 50000) (q : Fin 256) :
    Host.scatterAdd scatter_S50000x256_S800000x1_S800000x256_1_0_0_1 x idx upd (ix2 p q)
      = x (ix2 p q) + ∑ j ∈ GcnSpec.land2 wf256 idx p q, upd j := rfl
/-- The scatter of edge rows into the node rows over 128 features, at `(p, q)`. -/
theorem scatterAdd128_apply (x : FVec Ideal S50000x128 .f32) (idx : IVec S800000x1 32) (upd : FVec Ideal S800000x128 .f32)
    (p : Fin 50000) (q : Fin 128) :
    Host.scatterAdd scatter_S50000x128_S800000x1_S800000x128_1_0_0_1 x idx upd (ix2 p q)
      = x (ix2 p q) + ∑ j ∈ GcnSpec.land2 wf128 idx p q, upd j := rfl

/-- The normaliser column at `(p, u)` is the normaliser vector at `p`. -/
theorem dcol_eq_dinvV (ei : (⟨S2x800000, .i32⟩ : BufTy).Contents (Elt Ideal)) (p : Fin 50000) (u : Fin 1) :
    dcol (F := Ideal) ei (ix2 p u) = dinvV (F := Ideal) ei (ix1 p) := by
  unfold dcol
  generalize dinvV (F := Ideal) ei = y
  exact broadcastInDim_apply _ bcast_S50000_S50000x1_0 y (ix2 p u) (ix1 p) (fun a => match a with
    | ⟨0, _⟩ => by show p.val = if (50000 : Nat) = 1 then 0 else p.val; rw [if_neg (by decide)])

/-- THE NORMALISER COLUMN at node `p`: the inverse square root of one plus the number of edges arriving at `p`. -/
theorem dcol_apply (ei : (⟨S2x800000, .i32⟩ : BufTy).Contents (Elt Ideal)) (p : Fin 50000) (u : Fin 1) :
    dcol (F := Ideal) ei (ix2 p u) = GcnSpec.dinv wf1 (didx (F := Ideal) ei) p := by
  rw [dcol_eq_dinvV]
  unfold dinvV
  rw [rsqrt_apply, addf_apply, scatterAdd1_apply, bcast_zero_apply, bcast_one_apply,
    Finset.sum_congr rfl (fun j _ => bcast_one_apply bcast_S_S800000 j)]
  rfl

/-- A 256-FEATURE LAYER'S HOST HALF at `(p, q)`, when the kernel's result is the projected features scaled by the row's
    normaliser: the layer that scales on the nodes. -/
theorem host256_apply (A : (⟨S50000x256, .bf16⟩ : BufTy).Contents (Elt Ideal))
    (ei : (⟨S2x800000, .i32⟩ : BufTy).Contents (Elt Ideal)) (b : (⟨S256, .f32⟩ : BufTy).Contents (Elt Ideal))
    (a : Fin 50000 → Fin 256 → EReal)
    (hA : ∀ (p : Fin 50000) (q : Fin 256), A (ix2 p q) = a p q * dcol (F := Ideal) ei (ix2 p (0 : Fin 1)))
    (p : Fin 50000) (q : Fin 256) :
    relu256 (F := Ideal) (agg256 A ei b) (ix2 p q)
      = GcnSpec.layerK hN wf1 wf256 (didx (F := Ideal) ei) (sidx (F := Ideal) ei) a (fun q => b (ix1 q)) p q := by
  -- the normaliser, broadcast along the features, read at (p, q)
  have hB1 : broadcastInDim S50000x256 ![0, 1] bcast_S50000x1_S50000x256_0_1 (dcol (F := Ideal) ei) (ix2 p q)
      = GcnSpec.dinv wf1 (didx (F := Ideal) ei) p := by
    rw [← dcol_apply ei p 0]
    generalize dcol (F := Ideal) ei = y
    exact broadcastInDim_apply _ bcast_S50000x1_S50000x256_0_1 y (ix2 p q) (ix2 p 0) (fun a => match a with
      | ⟨0, _⟩ => by show p.val = if (50000 : Nat) = 1 then 0 else p.val; rw [if_neg (by decide)]
      | ⟨1, _⟩ => by show 0 = if (1 : Nat) = 1 then 0 else q.val; rw [if_pos rfl])
  -- the bias, broadcast along the nodes, read at (p, q)
  have hB2 : broadcastInDim S50000x256 ![0, 1] bcast_S1x256_S50000x256_0_1
      (broadcastInDim S1x256 ![1] bcast_S256_S1x256_1 b) (ix2 p q) = b (ix1 q) := by
    have h1 : broadcastInDim S1x256 ![1] bcast_S256_S1x256_1 b (ix2 ⟨0, Nat.one_pos⟩ q) = b (ix1 q) :=
      broadcastInDim_apply _ bcast_S256_S1x256_1 b (ix2 ⟨0, Nat.one_pos⟩ q) (ix1 q) (fun a => match a with
        | ⟨0, _⟩ => by show q.val = if (256 : Nat) = 1 then 0 else q.val; rw [if_neg (by decide)])
    rw [← h1]
    generalize broadcastInDim S1x256 ![1] bcast_S256_S1x256_1 b = y
    exact broadcastInDim_apply _ bcast_S1x256_S50000x256_0_1 y (ix2 p q) (ix2 ⟨0, Nat.one_pos⟩ q) (fun a => match a with
      | ⟨0, _⟩ => by show 0 = if (1 : Nat) = 1 then 0 else p.val; rw [if_pos rfl]
      | ⟨1, _⟩ => by show q.val = if (256 : Nat) = 1 then 0 else q.val; rw [if_neg (by decide)])
  -- the gathered row of an edge, widened
  have hG : ∀ u : S800000x256.Idx,
      (extf .f32 (Host.gather gather_S50000x256_S800000x1_S800000x256_1_0_n_n_0_1_1256 A (sidx (F := Ideal) ei) : FVec Ideal S800000x256 .bf16) bitsLt_bf16_f32 :
        FVec Ideal S800000x256 .f32) u
      = a (GcnSpec.row hN (sidx (F := Ideal) ei) (u 0)) (u 1)
        * GcnSpec.dinv wf1 (didx (F := Ideal) ei) (GcnSpec.row hN (sidx (F := Ideal) ei) (u 0)) := by
    intro u
    refine (gather_rows_apply hN Facts₀.gather_S50000x256_S800000x1_S800000x256_1_0_n_n_0_1_1256_wf A (sidx (F := Ideal) ei) u).trans ?_
    show A (ix2 (GcnSpec.row hN (sidx (F := Ideal) ei) (u 0)) (u 1)) = _
    have h2 := hA (GcnSpec.row hN (sidx (F := Ideal) ei) (u 0)) (u 1)
    rw [dcol_apply] at h2
    exact h2
  unfold relu256 agg256
  rw [maximumf_apply, addf_apply, mulf_apply, addf_apply, scatterAdd256_apply, extf_apply, hB1, hB2, hA, dcol_apply,
    bcast_zero_apply, Finset.sum_congr rfl (fun u _ => hG u)]
  rfl

/-- THE LAST, 128-FEATURE LAYER'S HOST HALF at `(p, q)`, likewise. -/
theorem host128_apply (A : (⟨S50000x128, .bf16⟩ : BufTy).Contents (Elt Ideal))
    (ei : (⟨S2x800000, .i32⟩ : BufTy).Contents (Elt Ideal)) (b : (⟨S128, .f32⟩ : BufTy).Contents (Elt Ideal))
    (a : Fin 50000 → Fin 128 → EReal)
    (hA : ∀ (p : Fin 50000) (q : Fin 128), A (ix2 p q) = a p q * dcol (F := Ideal) ei (ix2 p (0 : Fin 1)))
    (p : Fin 50000) (q : Fin 128) :
    relu128 (F := Ideal) (agg128 A ei b) (ix2 p q)
      = GcnSpec.layerK hN wf1 wf128 (didx (F := Ideal) ei) (sidx (F := Ideal) ei) a (fun q => b (ix1 q)) p q := by
  -- the normaliser, broadcast along the features, read at (p, q)
  have hB1 : broadcastInDim S50000x128 ![0, 1] bcast_S50000x1_S50000x128_0_1 (dcol (F := Ideal) ei) (ix2 p q)
      = GcnSpec.dinv wf1 (didx (F := Ideal) ei) p := by
    rw [← dcol_apply ei p 0]
    generalize dcol (F := Ideal) ei = y
    exact broadcastInDim_apply _ bcast_S50000x1_S50000x128_0_1 y (ix2 p q) (ix2 p 0) (fun a => match a with
      | ⟨0, _⟩ => by show p.val = if (50000 : Nat) = 1 then 0 else p.val; rw [if_neg (by decide)]
      | ⟨1, _⟩ => by show 0 = if (1 : Nat) = 1 then 0 else q.val; rw [if_pos rfl])
  -- the bias, broadcast along the nodes, read at (p, q)
  have hB2 : broadcastInDim S50000x128 ![0, 1] bcast_S1x128_S50000x128_0_1
      (broadcastInDim S1x128 ![1] bcast_S128_S1x128_1 b) (ix2 p q) = b (ix1 q) := by
    have h1 : broadcastInDim S1x128 ![1] bcast_S128_S1x128_1 b (ix2 ⟨0, Nat.one_pos⟩ q) = b (ix1 q) :=
      broadcastInDim_apply _ bcast_S128_S1x128_1 b (ix2 ⟨0, Nat.one_pos⟩ q) (ix1 q) (fun a => match a with
        | ⟨0, _⟩ => by show q.val = if (128 : Nat) = 1 then 0 else q.val; rw [if_neg (by decide)])
    rw [← h1]
    generalize broadcastInDim S1x128 ![1] bcast_S128_S1x128_1 b = y
    exact broadcastInDim_apply _ bcast_S1x128_S50000x128_0_1 y (ix2 p q) (ix2 ⟨0, Nat.one_pos⟩ q) (fun a => match a with
      | ⟨0, _⟩ => by show 0 = if (1 : Nat) = 1 then 0 else p.val; rw [if_pos rfl]
      | ⟨1, _⟩ => by show q.val = if (128 : Nat) = 1 then 0 else q.val; rw [if_neg (by decide)])
  -- the gathered row of an edge, widened
  have hG : ∀ u : S800000x128.Idx,
      (extf .f32 (Host.gather gather_S50000x128_S800000x1_S800000x128_1_0_n_n_0_1_1128 A (sidx (F := Ideal) ei) : FVec Ideal S800000x128 .bf16) bitsLt_bf16_f32 :
        FVec Ideal S800000x128 .f32) u
      = a (GcnSpec.row hN (sidx (F := Ideal) ei) (u 0)) (u 1)
        * GcnSpec.dinv wf1 (didx (F := Ideal) ei) (GcnSpec.row hN (sidx (F := Ideal) ei) (u 0)) := by
    intro u
    refine (gather_rows_apply hN Facts₀.gather_S50000x128_S800000x1_S800000x128_1_0_n_n_0_1_1128_wf A (sidx (F := Ideal) ei) u).trans ?_
    show A (ix2 (GcnSpec.row hN (sidx (F := Ideal) ei) (u 0)) (u 1)) = _
    have h2 := hA (GcnSpec.row hN (sidx (F := Ideal) ei) (u 0)) (u 1)
    rw [dcol_apply] at h2
    exact h2
  unfold relu128 agg128
  rw [maximumf_apply, addf_apply, mulf_apply, addf_apply, scatterAdd128_apply, extf_apply, hB1, hB2, hA, dcol_apply,
    bcast_zero_apply, Finset.sum_congr rfl (fun u _ => hG u)]
  rfl

/-- What a 256-feature layer hands on is its rectified result: the narrower format changes nothing at the ideal values. -/
theorem next256_apply (A : (⟨S50000x256, .bf16⟩ : BufTy).Contents (Elt Ideal))
    (ei : (⟨S2x800000, .i32⟩ : BufTy).Contents (Elt Ideal)) (b : (⟨S256, .f32⟩ : BufTy).Contents (Elt Ideal))
    (i : S50000x256.Idx) :
    next256 (F := Ideal) A ei b i = relu256 (F := Ideal) (agg256 A ei b) i := rfl

end Cert.KernelIdeal.HostValue

end
-- ==== Proof.KValue.lean ====
/-
  The idealized kernel program's result, entry by entry, in the layer specification.

  Each kernel call's output entry `(p, q)` is `(∑ k, h (p, k) · w (k, q)) · dinv p`: a projected row times its
  normaliser, which is the form the host half of a layer expects of the array it gathers from.  So after each
  layer the array holds `GcnSpec.layerK` of the projection of the previous layer's array, and the result is the
  third layer of the second of the first.
-/
import proofs.«137940_j67774583931071_2_alg».proof.Proof.KChain
import proofs.«137940_j67774583931071_2_alg».proof.Proof.KHost

noncomputable section

namespace Cert.KernelIdeal.KValue

open Cert.KernelIdeal Cert.KernelIdeal.Gen Cert.KernelIdeal.Chain Cert.KernelIdeal.HostValue Cert.KernelIdeal.RegionValue
open Idealize.ShloMosaic Idealize.ShloMosaic.TcCoe Idealize.ShloMosaic.ValueIdx Idealize.ShloMosaic.GcnSpec
open Idealize.SL Idealize.SL.Sem

variable (m : (ℓ : Loc nD τ sig) → Buf (Elt Ideal) ℓ) (c : Dev nD)

/-- The first layer's output, from the arguments as launched. -/
def L1 : Fin 50000 → Fin 256 → EReal :=
  layerK hN wf1 wf256 (didx (F := Ideal) (aE m c)) (sidx (F := Ideal) (aE m c))
    (mm (fun p k => aX m c (ix2 p k)) (fun k q => aW1 m c (ix2 k q))) (fun q => aB1 m c (ix1 q))
/-- The second layer's output. -/
def L2 : Fin 50000 → Fin 256 → EReal :=
  layerK hN wf1 wf256 (didx (F := Ideal) (aE m c)) (sidx (F := Ideal) (aE m c))
    (mm (L1 m c) (fun k q => aW2 m c (ix2 k q))) (fun q => aB2 m c (ix1 q))
/-- The third layer's output: the result. -/
def L3 : Fin 50000 → Fin 128 → EReal :=
  layerK hN wf1 wf128 (didx (F := Ideal) (aE m c)) (sidx (F := Ideal) (aE m c))
    (mm (L2 m c) (fun k q => aW3 m c (ix2 k q))) (fun q => aB3 m c (ix1 q))

theorem H1_apply (p : Fin 50000) (q : Fin 256) : H1 m c (ix2 p q) = L1 m c p q := by
  unfold H1
  rw [next256_apply]
  exact host256_apply (P1 m c) (aE m c) (aB1 m c)
    (mm (fun p k => aX m c (ix2 p k)) (fun k q => aW1 m c (ix2 k q))) (fun p q => rfl) p q

theorem H2_apply (p : Fin 50000) (q : Fin 256) : H2 m c (ix2 p q) = L2 m c p q := by
  unfold H2
  rw [next256_apply]
  refine host256_apply (P2 m c) (aE m c) (aB2 m c) (mm (L1 m c) (fun k q => aW2 m c (ix2 k q))) (fun p q => ?_) p q
  show (∑ k : Fin 256, H1 m c (ix2 p k) * aW2 m c (ix2 k q)) * dcol (F := Ideal) (aE m c) (ix2 p (0 : Fin 1))
    = (∑ k : Fin 256, L1 m c p k * aW2 m c (ix2 k q)) * dcol (F := Ideal) (aE m c) (ix2 p (0 : Fin 1))
  simp only [H1_apply]

/-- THE KERNEL PROGRAM'S RESULT at `(p, q)`. -/
theorem result_apply (p : Fin 50000) (q : Fin 128) : OUT m c (ix2 p q) = L3 m c p q := by
  unfold OUT
  refine host128_apply (P3 m c) (aE m c) (aB3 m c) (mm (L2 m c) (fun k q => aW3 m c (ix2 k q))) (fun p q => ?_) p q
  show (∑ k : Fin 256, H2 m c (ix2 p k) * aW3 m c (ix2 k q)) * dcol (F := Ideal) (aE m c) (ix2 p (0 : Fin 1))
    = (∑ k : Fin 256, L2 m c p k * aW3 m c (ix2 k q)) * dcol (F := Ideal) (aE m c) (ix2 p (0 : Fin 1))
  simp only [H2_apply]

end Cert.KernelIdeal.KValue

end
-- ==== Proof.RefLayers.lean ====
/-
  The reference program, read at an index, at the ideal values.

  The program takes the node features, the two rows of edge words (sources, targets) and three pairs of weights and
  biases.  The normaliser of node `p` is `(1 + #{edges arriving at p})^(-1/2)`: the accumulating scatter of ones into
  zeros counts the edges whose target word, read signed, is `p`.  Each edge `e` carries the product of the normalisers
  gathered at its wrapped source word and at its wrapped target word (a negative word has the node count added; a gather
  then clamps the word into the node range).  A layer projects the features, gathers the projected row of every edge's
  source, scales it by the edge's product, accumulates the rows at the edges' target words, adds the node's own projected
  row scaled by the square of its normaliser, adds the bias and rectifies: at `(p, q)` this is the layer that scales on
  the edges (`GcnSpec.layerR`) over the projection (`GcnSpec.mm`).  The result is three such layers chained.
  Wrapping leaves a non-negative word alone.
-/
import proofs.«137940_j67774583931071_2_alg».proof.Proof.Gen.ReferenceIdeal.Read
import proofs.«137940_j67774583931071_2_alg».proof.Proof.GcnSpec
import Idealize.ShloMosaic.Lib.IdealHost
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.GatherScatterIdx Idealize.ShloMosaic.GcnSpec

/-- The target words of the edges, as an `[E, 1]` column. -/
abbrev didx (x1 : (⟨S2x800000, .i32⟩ : BufTy).Contents (Elt Ideal)) : IVec ⟨2, ![800000, 1]⟩ 32 :=
  val_main_v6 (F := Ideal) x1
/-- The source words of the edges, wrapped (a negative word has the node count added), as an `[E, 1]` column. -/
abbrev sidx (x1 : (⟨S2x800000, .i32⟩ : BufTy).Contents (Elt Ideal)) : IVec ⟨2, ![800000, 1]⟩ 32 :=
  val_main_v16 (F := Ideal) x1
/-- The target words of the edges, wrapped, as an `[E, 1]` column. -/
abbrev widx (x1 : (⟨S2x800000, .i32⟩ : BufTy).Contents (Elt Ideal)) : IVec ⟨2, ![800000, 1]⟩ 32 :=
  val_main_v23 (F := Ideal) x1

/-- There is at least one node. -/
theorem hN : 0 < 50000 := by decide
/-- The program's three accumulating scatters have well-formed dimension numbers. -/
abbrev wf1 : WF1 50000 800000 := Facts₀.scatter_S50000_S800000x1_S800000_n_0_0_1_wf
abbrev wf256 : WF2 50000 800000 256 := Facts₀.scatter_S50000x256_S800000x1_S800000x256_1_0_0_1_wf
abbrev wf128 : WF2 50000 800000 128 := Facts₀.scatter_S50000x128_S800000x1_S800000x128_1_0_0_1_wf

abbrev X1 := (⟨S2x800000, .i32⟩ : BufTy).Contents (Elt Ideal)

abbrev X0 := (⟨S50000x128, .f32⟩ : BufTy).Contents (Elt Ideal)
abbrev X2 := (⟨S128x256, .f32⟩ : BufTy).Contents (Elt Ideal)
abbrev X3 := (⟨S256, .f32⟩ : BufTy).Contents (Elt Ideal)
abbrev X4 := (⟨S256x256, .f32⟩ : BufTy).Contents (Elt Ideal)
abbrev X5 := (⟨S256, .f32⟩ : BufTy).Contents (Elt Ideal)
abbrev X6 := (⟨S256x128, .f32⟩ : BufTy).Contents (Elt Ideal)
abbrev X7 := (⟨S128, .f32⟩ : BufTy).Contents (Elt Ideal)

/-- Wrapping leaves a non-negative word alone. -/
theorem widx_of_nonneg (x1 : X1) (e : Fin 800000)
    (h : ¬ (didx x1 (ix2 e ⟨0, Nat.one_pos⟩)).toInt < 0) :
    widx x1 (ix2 e ⟨0, Nat.one_pos⟩) = didx x1 (ix2 e ⟨0, Nat.one_pos⟩) := by
  show val_main_v23 (F := Ideal) x1 (ix2 e ⟨0, Nat.one_pos⟩) = val_main_v6 (F := Ideal) x1 (ix2 e ⟨0, Nat.one_pos⟩)
  have h' : ¬ (val_main_v6 (F := Ideal) x1 (ix2 e ⟨0, Nat.one_pos⟩)).toInt < 0 := h
  rw [val_main_v6_apply] at h' ⊢
  rw [val_main_v23_apply, val_main_v22_apply, val_main_v19_apply, val_main_v18_apply, val_main_c_3_apply]
  refine if_neg fun hc => h' ?_
  have := IntOp.cmpi_slt.mp hc
  simpa using this

theorem sidx34 (x1 : X1) : val_main_v34 (F := Ideal) x1 = sidx x1 := rfl
theorem sidx55 (x1 : X1) : val_main_v55 (F := Ideal) x1 = sidx x1 := rfl
theorem sidx76 (x1 : X1) : val_main_v76 (F := Ideal) x1 = sidx x1 := rfl
theorem didx40 (x1 : X1) : val_main_v40 (F := Ideal) x1 = didx x1 := rfl
theorem didx61 (x1 : X1) : val_main_v61 (F := Ideal) x1 = didx x1 := rfl
theorem didx82 (x1 : X1) : val_main_v82 (F := Ideal) x1 = didx x1 := rfl

/-! ## The operations read at an index -/

section Auxiliary
variable {s si u : Shape} {φ : FTy} {w : Nat}

/-- The host's inverse square root at an index is the inverse square root of the element. -/
theorem rsqrt_apply (x : FVec Ideal s φ) (i : s.Idx) : Host.rsqrt x i = Ideal.rsqrt (x i) := rfl

/-- The host's accumulating scatter at an index: the operand there plus the sum of the updates that land there. -/
theorem scatterAdd_apply (d : ScatterDims s si u) (x : FVec Ideal s φ) (idx : IVec si w) (upd : FVec Ideal u φ)
    (i : s.Idx) :
    Host.scatterAdd d x idx upd i = x i + ∑ j ∈ Finset.univ.filter (fun j => d.resultIdx? j idx = some i), upd j := rfl

/-- A broadcast scalar zero reads zero everywhere … -/
theorem bcast_zero_apply {t : Shape} (h : S_.BroadcastsInDim t ![]) (j : t.Idx) :
    broadcastInDim t ![] h (constant (F := Ideal) S_ .f32 0x00000000#32) j = 0 := Ideal.ofBits_zero_f32
/-- … and a broadcast scalar one reads one. -/
theorem bcast_one_apply {t : Shape} (h : S_.BroadcastsInDim t ![]) (j : t.Idx) :
    broadcastInDim t ![] h (constant (F := Ideal) S_ .f32 0x3F800000#32) j = 1 := Ideal.ofBits_one_f32

end Auxiliary

/-- The scatter of edge values into the nodes, at node `p`: the operand there plus the sum over the edges arriving at `p`. -/
theorem scatterAdd1_apply (x : FVec Ideal S50000 .f32) (idx : IVec S800000x1 32) (upd : FVec Ideal S800000 .f32) (p : Fin 50000) :
    Host.scatterAdd scatter_S50000_S800000x1_S800000_n_0_0_1 x idx upd (ix1 p)
      = x (ix1 p) + ∑ j ∈ land1 wf1 idx p, upd j := rfl
/-- The scatter of edge rows into the node rows over 256 features, at `(p, q)`. -/
theorem scatterAdd256_apply (x : FVec Ideal S50000x256 .f32) (idx : IVec S800000x1 32) (upd : FVec Ideal S800000x256 .f32)
    (p : Fin 50000) (q : Fin 256) :
    Host.scatterAdd scatter_S50000x256_S800000x1_S800000x256_1_0_0_1 x idx upd (ix2 p q)
      = x (ix2 p q) + ∑ j ∈ land2 wf256 idx p q, upd j := rfl
/-- The scatter of edge rows into the node rows over 128 features, at `(p, q)`. -/
theorem scatterAdd128_apply (x : FVec Ideal S50000x128 .f32) (idx : IVec S800000x1 32) (upd : FVec Ideal S800000x128 .f32)
    (p : Fin 50000) (q : Fin 128) :
    Host.scatterAdd scatter_S50000x128_S800000x1_S800000x128_1_0_0_1 x idx upd (ix2 p q)
      = x (ix2 p q) + ∑ j ∈ land2 wf128 idx p q, upd j := rfl

/-- The degree scatter at node `p`: zero plus one for every edge arriving at `p`. -/
theorem v7_eq (x1 : X1) (p : Fin 50000) :
    val_main_v7 (F := Ideal) x1 (ix1 p) = 0 + ∑ _u ∈ land1 wf1 (didx x1) p, (1 : EReal) := by
  rw [val_main_v7, scatterAdd1_apply, val_main_v5, val_main_cst_0, bcast_zero_apply]
  refine congrArg _ (Finset.sum_congr rfl fun j _ => ?_)
  rw [val_main_v4, val_main_cst, bcast_one_apply]

/-- The normaliser the program computes is the specification's. -/
theorem v10_eq (x1 : X1) (p : Fin 50000) :
    val_main_v10 (F := Ideal) x1 (ix1 p) = dinv wf1 (didx x1) p := by
  rw [val_main_v10, rsqrt_apply, val_main_v9_apply, Ideal.addf_def, v7_eq, val_main_v8, val_main_cst_1, bcast_one_apply]
  rfl

/-- The normaliser gathered at the (wrapped) source word of edge `e`. -/
theorem v17_eq (x1 : X1) (e : Fin 800000) :
    val_main_v17 (F := Ideal) x1 (ix1 e) = dinv wf1 (didx x1) (row hN (sidx x1) e) := by
  rw [val_main_v17]
  refine (gather_elems_apply hN Facts₀.gather_S50000_S800000x1_S800000_n_0_n_n_0_1_1_wf
    (val_main_v10 (F := Ideal) x1) (sidx x1) (ix1 e)).trans ?_
  exact v10_eq x1 (row hN (sidx x1) e)

/-- The normaliser gathered at the (wrapped) target word of edge `e`. -/
theorem v24_eq (x1 : X1) (e : Fin 800000) :
    val_main_v24 (F := Ideal) x1 (ix1 e) = dinv wf1 (didx x1) (row hN (widx x1) e) := by
  rw [val_main_v24]
  refine (gather_elems_apply hN Facts₀.gather_S50000_S800000x1_S800000_n_0_n_n_0_1_1_wf
    (val_main_v10 (F := Ideal) x1) (widx x1) (ix1 e)).trans ?_
  exact v10_eq x1 (row hN (widx x1) e)

/-- The edge normalisation. -/
theorem v25_eq (x1 : X1) (e : Fin 800000) :
    val_main_v25 (F := Ideal) x1 (ix1 e)
      = dinv wf1 (didx x1) (row hN (sidx x1) e) * dinv wf1 (didx x1) (row hN (widx x1) e) := by
  rw [val_main_v25_apply, Ideal.mulf_def, v17_eq, v24_eq]

/-- The self-loop normalisation. -/
theorem v26_eq (x1 : X1) (p : Fin 50000) :
    val_main_v26 (F := Ideal) x1 (ix1 p) = dinv wf1 (didx x1) p * dinv wf1 (didx x1) p := by
  rw [val_main_v26_apply, Ideal.mulf_def, v10_eq]

/-! ## Layer 1 -/

/-- Layer 1: the projection. -/
theorem v28_mm (x0 : X0) (x2 : X2) (p : Fin 50000) (q : Fin 256) :
    val_main_v28 (F := Ideal) x0 x2 (ix2 p q) = mm (fun p k => x0 (ix2 p k)) (fun k q => x2 (ix2 k q)) p q := by
  rw [val_main_v28_apply]
  refine Finset.sum_congr rfl fun k _ => ?_
  rw [show lidx_main_v28 (ix2 p q) k = ix2 p k from funext fun a => match a with | ⟨0, _⟩ => rfl | ⟨1, _⟩ => rfl,
    show ridx_main_v28 (ix2 p q) k = ix2 k q from funext fun a => match a with | ⟨0, _⟩ => rfl | ⟨1, _⟩ => rfl]

/-- Layer 1: the gathered row of edge `e` is the projection's row at the edge's source. -/
theorem v35_eq (x0 : X0) (x1 : X1) (x2 : X2) (e : Fin 800000) (c : Fin 256) :
    val_main_v35 (F := Ideal) x0 x1 x2 (ix2 e c) = val_main_v28 (F := Ideal) x0 x2 (ix2 (row hN (sidx x1) e) c) := by
  rw [val_main_v35, sidx34]
  exact gather_rows_apply hN Facts₀.gather_S50000x256_S800000x1_S800000x256_1_0_n_n_0_1_1256_wf (val_main_v28 (F := Ideal) x0 x2) (sidx x1) (ix2 e c)

/-- Layer 1: the gathered row scaled by the edge normalisation. -/
theorem v38_eq (x0 : X0) (x1 : X1) (x2 : X2) (e : Fin 800000) (c : Fin 256) :
    val_main_v38 (F := Ideal) x0 x1 x2 (ix2 e c)
      = val_main_v28 (F := Ideal) x0 x2 (ix2 (row hN (sidx x1) e) c)
        * (dinv wf1 (didx x1) (row hN (sidx x1) e) * dinv wf1 (didx x1) (row hN (widx x1) e)) := by
  rw [val_main_v38_apply, Ideal.mulf_def, v35_eq, val_main_v37_apply, val_main_v36_apply,
    show idx_main_v36 (idx_main_v37 (ix2 e c)) = ix1 e from funext fun a => match a with | ⟨0, _⟩ => rfl,
    v25_eq]

/-- Layer 1: the rows of the arriving edges accumulated at `(p, q)`. -/
theorem v41_eq (x0 : X0) (x1 : X1) (x2 : X2) (p : Fin 50000) (q : Fin 256) :
    val_main_v41 (F := Ideal) x0 x1 x2 (ix2 p q)
      = 0 + ∑ u ∈ land2 wf256 (didx x1) p q, val_main_v28 (F := Ideal) x0 x2 (ix2 (row hN (sidx x1) (u 0)) (u 1))
          * (dinv wf1 (didx x1) (row hN (sidx x1) (u 0)) * dinv wf1 (didx x1) (row hN (widx x1) (u 0))) := by
  rw [val_main_v41, didx40, scatterAdd256_apply, val_main_v39, val_main_cst_7, bcast_zero_apply]
  refine congrArg _ (Finset.sum_congr rfl fun u _ => ?_)
  obtain ⟨e, c, rfl⟩ : ∃ e c, u = ix2 e c := ⟨u 0, u 1, eq_ix2 u⟩
  exact v38_eq x0 x1 x2 e c

/-- Layer 1: the self-loop normalisation broadcast along the features. -/
theorem v42_eq (x1 : X1) (p : Fin 50000) (q : Fin 256) :
    val_main_v42 (F := Ideal) x1 (ix2 p q) = dinv wf1 (didx x1) p * dinv wf1 (didx x1) p := by
  rw [val_main_v42_apply, val_main_v27_apply,
    show idx_main_v27 (idx_main_v42 (ix2 p q)) = ix1 p from funext fun a => match a with | ⟨0, _⟩ => rfl,
    v26_eq]

/-- Layer 1: the bias broadcast along the nodes. -/
theorem v46_eq (x3 : X3) (p : Fin 50000) (q : Fin 256) :
    val_main_v46 (F := Ideal) x3 (ix2 p q) = x3 (ix1 q) := by
  rw [val_main_v46_apply, val_main_v45_apply,
    show idx_main_v45 (idx_main_v46 (ix2 p q)) = ix1 q from funext fun a => match a with | ⟨0, _⟩ => rfl]

/-- Layer 1 at `(p, q)`: the layer that scales on the edges, over the projection. -/
theorem layer1_eq (x0 : X0) (x1 : X1) (x2 : X2) (x3 : X3) (p : Fin 50000) (q : Fin 256) :
    val_main_v48 (F := Ideal) x0 x1 x2 x3 (ix2 p q)
      = layerR hN wf1 wf256 (didx x1) (sidx x1) (widx x1) (fun p q => val_main_v28 (F := Ideal) x0 x2 (ix2 p q)) (fun q => x3 (ix1 q)) p q := by
  rw [val_main_v48_apply, Ideal.maximumf_def, val_main_v47_apply, Ideal.addf_def, val_main_v44_apply,
    Ideal.addf_def, val_main_v43_apply, Ideal.mulf_def, v41_eq, v42_eq, v46_eq, val_main_call0_v0,
    val_main_call0_cst, bcast_zero_apply]
  rfl

/-! ## Layer 2 -/

/-- Layer 2: the projection. -/
theorem v49_mm (x0 : X0) (x1 : X1) (x2 : X2) (x3 : X3) (x4 : X4) (p : Fin 50000) (q : Fin 256) :
    val_main_v49 (F := Ideal) x0 x1 x2 x3 x4 (ix2 p q) = mm (fun p k => val_main_v48 (F := Ideal) x0 x1 x2 x3 (ix2 p k)) (fun k q => x4 (ix2 k q)) p q := by
  rw [val_main_v49_apply]
  refine Finset.sum_congr rfl fun k _ => ?_
  rw [show lidx_main_v49 (ix2 p q) k = ix2 p k from funext fun a => match a with | ⟨0, _⟩ => rfl | ⟨1, _⟩ => rfl,
    show ridx_main_v49 (ix2 p q) k = ix2 k q from funext fun a => match a with | ⟨0, _⟩ => rfl | ⟨1, _⟩ => rfl]

/-- Layer 2: the gathered row of edge `e` is the projection's row at the edge's source. -/
theorem v56_eq (x0 : X0) (x1 : X1) (x2 : X2) (x3 : X3) (x4 : X4) (e : Fin 800000) (c : Fin 256) :
    val_main_v56 (F := Ideal) x0 x1 x2 x3 x4 (ix2 e c) = val_main_v49 (F := Ideal) x0 x1 x2 x3 x4 (ix2 (row hN (sidx x1) e) c) := by
  rw [val_main_v56, sidx55]
  exact gather_rows_apply hN Facts₀.gather_S50000x256_S800000x1_S800000x256_1_0_n_n_0_1_1256_wf (val_main_v49 (F := Ideal) x0 x1 x2 x3 x4) (sidx x1) (ix2 e c)

/-- Layer 2: the gathered row scaled by the edge normalisation. -/
theorem v59_eq (x0 : X0) (x1 : X1) (x2 : X2) (x3 : X3) (x4 : X4) (e : Fin 800000) (c : Fin 256) :
    val_main_v59 (F := Ideal) x0 x1 x2 x3 x4 (ix2 e c)
      = val_main_v49 (F := Ideal) x0 x1 x2 x3 x4 (ix2 (row hN (sidx x1) e) c)
        * (dinv wf1 (didx x1) (row hN (sidx x1) e) * dinv wf1 (didx x1) (row hN (widx x1) e)) := by
  rw [val_main_v59_apply, Ideal.mulf_def, v56_eq, val_main_v58_apply, val_main_v57_apply,
    show idx_main_v57 (idx_main_v58 (ix2 e c)) = ix1 e from funext fun a => match a with | ⟨0, _⟩ => rfl,
    v25_eq]

/-- Layer 2: the rows of the arriving edges accumulated at `(p, q)`. -/
theorem v62_eq (x0 : X0) (x1 : X1) (x2 : X2) (x3 : X3) (x4 : X4) (p : Fin 50000) (q : Fin 256) :
    val_main_v62 (F := Ideal) x0 x1 x2 x3 x4 (ix2 p q)
      = 0 + ∑ u ∈ land2 wf256 (didx x1) p q, val_main_v49 (F := Ideal) x0 x1 x2 x3 x4 (ix2 (row hN (sidx x1) (u 0)) (u 1))
          * (dinv wf1 (didx x1) (row hN (sidx x1) (u 0)) * dinv wf1 (didx x1) (row hN (widx x1) (u 0))) := by
  rw [val_main_v62, didx61, scatterAdd256_apply, val_main_v60, val_main_cst_10, bcast_zero_apply]
  refine congrArg _ (Finset.sum_congr rfl fun u _ => ?_)
  obtain ⟨e, c, rfl⟩ : ∃ e c, u = ix2 e c := ⟨u 0, u 1, eq_ix2 u⟩
  exact v59_eq x0 x1 x2 x3 x4 e c

/-- Layer 2: the self-loop normalisation broadcast along the features. -/
theorem v63_eq (x1 : X1) (p : Fin 50000) (q : Fin 256) :
    val_main_v63 (F := Ideal) x1 (ix2 p q) = dinv wf1 (didx x1) p * dinv wf1 (didx x1) p := by
  rw [val_main_v63_apply, val_main_v27_apply,
    show idx_main_v27 (idx_main_v63 (ix2 p q)) = ix1 p from funext fun a => match a with | ⟨0, _⟩ => rfl,
    v26_eq]

/-- Layer 2: the bias broadcast along the nodes. -/
theorem v67_eq (x5 : X5) (p : Fin 50000) (q : Fin 256) :
    val_main_v67 (F := Ideal) x5 (ix2 p q) = x5 (ix1 q) := by
  rw [val_main_v67_apply, val_main_v66_apply,
    show idx_main_v66 (idx_main_v67 (ix2 p q)) = ix1 q from funext fun a => match a with | ⟨0, _⟩ => rfl]

/-- Layer 2 at `(p, q)`: the layer that scales on the edges, over the projection. -/
theorem layer2_eq (x0 : X0) (x1 : X1) (x2 : X2) (x3 : X3) (x4 : X4) (x5 : X5) (p : Fin 50000) (q : Fin 256) :
    val_main_v69 (F := Ideal) x0 x1 x2 x3 x4 x5 (ix2 p q)
      = layerR hN wf1 wf256 (didx x1) (sidx x1) (widx x1) (fun p q => val_main_v49 (F := Ideal) x0 x1 x2 x3 x4 (ix2 p q)) (fun q => x5 (ix1 q)) p q := by
  rw [val_main_v69_apply, Ideal.maximumf_def, val_main_v68_apply, Ideal.addf_def, val_main_v65_apply,
    Ideal.addf_def, val_main_v64_apply, Ideal.mulf_def, v62_eq, v63_eq, v67_eq, val_main_call1_v0,
    val_main_call1_cst, bcast_zero_apply]
  rfl

/-! ## Layer 3 -/

/-- Layer 3: the projection. -/
theorem v70_mm (x0 : X0) (x1 : X1) (x2 : X2) (x3 : X3) (x4 : X4) (x5 : X5) (x6 : X6) (p : Fin 50000) (q : Fin 128) :
    val_main_v70 (F := Ideal) x0 x1 x2 x3 x4 x5 x6 (ix2 p q) = mm (fun p k => val_main_v69 (F := Ideal) x0 x1 x2 x3 x4 x5 (ix2 p k)) (fun k q => x6 (ix2 k q)) p q := by
  rw [val_main_v70_apply]
  refine Finset.sum_congr rfl fun k _ => ?_
  rw [show lidx_main_v70 (ix2 p q) k = ix2 p k from funext fun a => match a with | ⟨0, _⟩ => rfl | ⟨1, _⟩ => rfl,
    show ridx_main_v70 (ix2 p q) k = ix2 k q from funext fun a => match a with | ⟨0, _⟩ => rfl | ⟨1, _⟩ => rfl]

/-- Layer 3: the gathered row of edge `e` is the projection's row at the edge's source. -/
theorem v77_eq (x0 : X0) (x1 : X1) (x2 : X2) (x3 : X3) (x4 : X4) (x5 : X5) (x6 : X6) (e : Fin 800000) (c : Fin 128) :
    val_main_v77 (F := Ideal) x0 x1 x2 x3 x4 x5 x6 (ix2 e c) = val_main_v70 (F := Ideal) x0 x1 x2 x3 x4 x5 x6 (ix2 (row hN (sidx x1) e) c) := by
  rw [val_main_v77, sidx76]
  exact gather_rows_apply hN Facts₀.gather_S50000x128_S800000x1_S800000x128_1_0_n_n_0_1_1128_wf (val_main_v70 (F := Ideal) x0 x1 x2 x3 x4 x5 x6) (sidx x1) (ix2 e c)

/-- Layer 3: the gathered row scaled by the edge normalisation. -/
theorem v80_eq (x0 : X0) (x1 : X1) (x2 : X2) (x3 : X3) (x4 : X4) (x5 : X5) (x6 : X6) (e : Fin 800000) (c : Fin 128) :
    val_main_v80 (F := Ideal) x0 x1 x2 x3 x4 x5 x6 (ix2 e c)
      = val_main_v70 (F := Ideal) x0 x1 x2 x3 x4 x5 x6 (ix2 (row hN (sidx x1) e) c)
        * (dinv wf1 (didx x1) (row hN (sidx x1) e) * dinv wf1 (didx x1) (row hN (widx x1) e)) := by
  rw [val_main_v80_apply, Ideal.mulf_def, v77_eq, val_main_v79_apply, val_main_v78_apply,
    show idx_main_v78 (idx_main_v79 (ix2 e c)) = ix1 e from funext fun a => match a with | ⟨0, _⟩ => rfl,
    v25_eq]

/-- Layer 3: the rows of the arriving edges accumulated at `(p, q)`. -/
theorem v83_eq (x0 : X0) (x1 : X1) (x2 : X2) (x3 : X3) (x4 : X4) (x5 : X5) (x6 : X6) (p : Fin 50000) (q : Fin 128) :
    val_main_v83 (F := Ideal) x0 x1 x2 x3 x4 x5 x6 (ix2 p q)
      = 0 + ∑ u ∈ land2 wf128 (didx x1) p q, val_main_v70 (F := Ideal) x0 x1 x2 x3 x4 x5 x6 (ix2 (row hN (sidx x1) (u 0)) (u 1))
          * (dinv wf1 (didx x1) (row hN (sidx x1) (u 0)) * dinv wf1 (didx x1) (row hN (widx x1) (u 0))) := by
  rw [val_main_v83, didx82, scatterAdd128_apply, val_main_v81, val_main_cst_13, bcast_zero_apply]
  refine congrArg _ (Finset.sum_congr rfl fun u _ => ?_)
  obtain ⟨e, c, rfl⟩ : ∃ e c, u = ix2 e c := ⟨u 0, u 1, eq_ix2 u⟩
  exact v80_eq x0 x1 x2 x3 x4 x5 x6 e c

/-- Layer 3: the self-loop normalisation broadcast along the features. -/
theorem v84_eq (x1 : X1) (p : Fin 50000) (q : Fin 128) :
    val_main_v84 (F := Ideal) x1 (ix2 p q) = dinv wf1 (didx x1) p * dinv wf1 (didx x1) p := by
  rw [val_main_v84_apply, val_main_v27_apply,
    show idx_main_v27 (idx_main_v84 (ix2 p q)) = ix1 p from funext fun a => match a with | ⟨0, _⟩ => rfl,
    v26_eq]

/-- Layer 3: the bias broadcast along the nodes. -/
theorem v88_eq (x7 : X7) (p : Fin 50000) (q : Fin 128) :
    val_main_v88 (F := Ideal) x7 (ix2 p q) = x7 (ix1 q) := by
  rw [val_main_v88_apply, val_main_v87_apply,
    show idx_main_v87 (idx_main_v88 (ix2 p q)) = ix1 q from funext fun a => match a with | ⟨0, _⟩ => rfl]

/-- Layer 3 at `(p, q)`: the layer that scales on the edges, over the projection. -/
theorem layer3_eq (x0 : X0) (x1 : X1) (x2 : X2) (x3 : X3) (x4 : X4) (x5 : X5) (x6 : X6) (x7 : X7) (p : Fin 50000) (q : Fin 128) :
    val_main_v90 (F := Ideal) x0 x1 x2 x3 x4 x5 x6 x7 (ix2 p q)
      = layerR hN wf1 wf128 (didx x1) (sidx x1) (widx x1) (fun p q => val_main_v70 (F := Ideal) x0 x1 x2 x3 x4 x5 x6 (ix2 p q)) (fun q => x7 (ix1 q)) p q := by
  rw [val_main_v90_apply, Ideal.maximumf_def, val_main_v89_apply, Ideal.addf_def, val_main_v86_apply,
    Ideal.addf_def, val_main_v85_apply, Ideal.mulf_def, v83_eq, v84_eq, v88_eq, val_main_call2_v0,
    val_main_call2_cst, bcast_zero_apply]
  rfl

/-! ## The three layers chained -/

/-- The reference's result at entry `(p, q)`: three layers, each scaling on the edges, over the projections. -/
theorem ref_value (x0 : X0) (x1 : X1) (x2 : X2) (x3 : X3) (x4 : X4) (x5 : X5) (x6 : X6) (x7 : X7)
    (p : Fin 50000) (q : Fin 128) :
    val_main_v90 (F := Ideal) x0 x1 x2 x3 x4 x5 x6 x7 (ix2 p q)
      = layerR hN wf1 wf128 (didx x1) (sidx x1) (widx x1)
          (mm (layerR hN wf1 wf256 (didx x1) (sidx x1) (widx x1)
                (mm (layerR hN wf1 wf256 (didx x1) (sidx x1) (widx x1)
                      (mm (fun p k => x0 (ix2 p k)) (fun k q => x2 (ix2 k q))) (fun q => x3 (ix1 q)))
                    (fun k q => x4 (ix2 k q))) (fun q => x5 (ix1 q)))
              (fun k q => x6 (ix2 k q))) (fun q => x7 (ix1 q)) p q := by
  have h28 : (fun p q => val_main_v28 (F := Ideal) x0 x2 (ix2 p q)) = (mm (fun p k => x0 (ix2 p k)) (fun k q => x2 (ix2 k q))) := by
    funext p q
    exact v28_mm x0 x2 p q
  have h48 : (fun p k => val_main_v48 (F := Ideal) x0 x1 x2 x3 (ix2 p k)) = (layerR hN wf1 wf256 (didx x1) (sidx x1) (widx x1) (mm (fun p k => x0 (ix2 p k)) (fun k q => x2 (ix2 k q))) (fun q => x3 (ix1 q))) := by
    funext p k
    rw [layer1_eq, h28]
  have h49 : (fun p q => val_main_v49 (F := Ideal) x0 x1 x2 x3 x4 (ix2 p q)) = (mm (layerR hN wf1 wf256 (didx x1) (sidx x1) (widx x1) (mm (fun p k => x0 (ix2 p k)) (fun k q => x2 (ix2 k q))) (fun q => x3 (ix1 q))) (fun k q => x4 (ix2 k q))) := by
    funext p q
    rw [v49_mm, h48]
  have h69 : (fun p k => val_main_v69 (F := Ideal) x0 x1 x2 x3 x4 x5 (ix2 p k)) = (layerR hN wf1 wf256 (didx x1) (sidx x1) (widx x1) (mm (layerR hN wf1 wf256 (didx x1) (sidx x1) (widx x1) (mm (fun p k => x0 (ix2 p k)) (fun k q => x2 (ix2 k q))) (fun q => x3 (ix1 q))) (fun k q => x4 (ix2 k q))) (fun q => x5 (ix1 q))) := by
    funext p k
    rw [layer2_eq, h49]
  have h70 : (fun p q => val_main_v70 (F := Ideal) x0 x1 x2 x3 x4 x5 x6 (ix2 p q)) = (mm (layerR hN wf1 wf256 (didx x1) (sidx x1) (widx x1) (mm (layerR hN wf1 wf256 (didx x1) (sidx x1) (widx x1) (mm (fun p k => x0 (ix2 p k)) (fun k q => x2 (ix2 k q))) (fun q => x3 (ix1 q))) (fun k q => x4 (ix2 k q))) (fun q => x5 (ix1 q))) (fun k q => x6 (ix2 k q))) := by
    funext p q
    rw [v70_mm, h69]
  rw [layer3_eq, h70]

end Cert.ReferenceIdeal.RefValue

end
-- ==== Proof.lean ====
/-
  Three stacked graph-convolution layers over 50000 nodes and 800000 edges: the kernel program against its reference, on the
  extended reals.

  Both programs compute the normaliser of a node, `dinv p = (1 + number of edges arriving at p)^(-1/2)`, and per layer, with
  `a = h · W` the projected features,
      reference:  max ((∑_{e → p} a (src e) · (dinv (src e) · dinv (dst e)) + a p · (dinv p · dinv p)) + b) 0,
      kernel:     max (dinv p · (∑_{e → p} (a (src e) · dinv (src e)) + a p · dinv p) + b) 0,
  the kernel program doing the projection and the first scaling in a tiled matrix-unit kernel and the rest on the host.
  The edges `e → p` are the same set on both sides (one accumulating scatter at the same target words), the rows read are
  the same (one gather at the same wrapped source words), and an edge arriving at `p` has `dst e = p`; `dinv p` is a
  non-negative real, and such a factor distributes over a sum of arbitrary extended reals, so the two entries agree
  (`GcnSpec.layerK_eq_layerR`) — for any inputs: the finiteness precondition is not used.  The ideal pass rewrote nothing,
  so `preserves` is trivial.  The frames of the two kernel programs are the generated ones; the reference's is its
  generated run with the result dropped.
-/
import proofs.«137940_j67774583931071_2_alg».proof.Defs
import proofs.«137940_j67774583931071_2_alg».proof.Proof.Gen.Kernel
import proofs.«137940_j67774583931071_2_alg».proof.Proof.Gen.Kernel.Skeleton
import proofs.«137940_j67774583931071_2_alg».proof.Proof.Gen.Kernel.Launch
import proofs.«137940_j67774583931071_2_alg».proof.Proof.Gen.Kernel.Points
import proofs.«137940_j67774583931071_2_alg».proof.Proof.Gen.Kernel.Frame
import proofs.«137940_j67774583931071_2_alg».proof.Proof.Gen.KernelIdeal
import proofs.«137940_j67774583931071_2_alg».proof.Proof.Gen.KernelIdeal.Skeleton
import proofs.«137940_j67774583931071_2_alg».proof.Proof.Gen.KernelIdeal.Launch
import proofs.«137940_j67774583931071_2_alg».proof.Proof.Gen.KernelIdeal.Points
import proofs.«137940_j67774583931071_2_alg».proof.Proof.Gen.KernelIdeal.Frame
import proofs.«137940_j67774583931071_2_alg».proof.Proof.Gen.ReferenceIdeal
import proofs.«137940_j67774583931071_2_alg».proof.Proof.Gen.ReferenceIdeal.Run
import proofs.«137940_j67774583931071_2_alg».proof.Proof.Gen.ReferenceIdeal.Read
import proofs.«137940_j67774583931071_2_alg».proof.Proof.Gen.Pre_finite_inputs
import proofs.«137940_j67774583931071_2_alg».proof.Proof.KRun
import proofs.«137940_j67774583931071_2_alg».proof.Proof.KValue
import proofs.«137940_j67774583931071_2_alg».proof.Proof.RefLayers
import Idealize.ShloMosaic.Adequacy
import Idealize.ShloMosaic.Init

noncomputable section

namespace Cert.Proof

open Idealize.ShloMosaic Idealize.SL.Sem Idealize.ShloMosaic.ValueIdx Idealize.ShloMosaic.GcnSpec

/-! ## The two programs read the same index words off the edge array -/

/-- The target words as the scatters' index array: one term in both programs. -/
theorem didx_eq (x1 : (⟨Cert.KernelIdeal.S2x800000, .i32⟩ : BufTy).Contents (Elt Ideal)) :
    Cert.KernelIdeal.HostValue.didx (F := Ideal) x1 = Cert.ReferenceIdeal.RefValue.didx x1 := rfl
/-- The wrapped source words as the gathers' index array: one term in both programs. -/
theorem sidx_eq (x1 : (⟨Cert.KernelIdeal.S2x800000, .i32⟩ : BufTy).Contents (Elt Ideal)) :
    Cert.KernelIdeal.HostValue.sidx (F := Ideal) x1 = Cert.ReferenceIdeal.RefValue.sidx x1 := rfl

/-! ## The results agree -/

/-- From memories agreeing on the eight arguments, the reference's result term is the kernel program's result array. -/
theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v90 (F := Ideal) m' c = Cert.KernelIdeal.Chain.OUT m c := by
  rw [Cert.ReferenceIdeal.Read.val_main_v90_eq, h0, h1, h2, h3, h4, h5, h6, h7]
  funext i
  rw [eq_ix2 i]
  refine (Cert.ReferenceIdeal.RefValue.ref_value _ _ _ _ _ _ _ _ (i 0) (i 1)).trans ?_
  refine Eq.trans ?_ (Cert.KernelIdeal.KValue.result_apply m c (i 0) (i 1)).symm
  unfold Cert.KernelIdeal.KValue.L3 Cert.KernelIdeal.KValue.L2 Cert.KernelIdeal.KValue.L1
  rw [didx_eq, sidx_eq]
  have key : ∀ {D : ℕ} (wf2 : WF2 50000 800000 D) (a : Fin 50000 → Fin D → EReal) (b : Fin D → EReal),
      layerK Cert.KernelIdeal.HostValue.hN Cert.KernelIdeal.HostValue.wf1 wf2
          (Cert.ReferenceIdeal.RefValue.didx (Cert.KernelIdeal.Chain.aE m c)) (Cert.ReferenceIdeal.RefValue.sidx (Cert.KernelIdeal.Chain.aE m c)) a b
        = layerR Cert.KernelIdeal.HostValue.hN Cert.KernelIdeal.HostValue.wf1 wf2
          (Cert.ReferenceIdeal.RefValue.didx (Cert.KernelIdeal.Chain.aE m c)) (Cert.ReferenceIdeal.RefValue.sidx (Cert.KernelIdeal.Chain.aE m c))
          (Cert.ReferenceIdeal.RefValue.widx (Cert.KernelIdeal.Chain.aE m c)) a b :=
    fun wf2 a b => layerK_eq_layerR _ _ wf2 _ _ _ (Cert.ReferenceIdeal.RefValue.widx_of_nonneg (Cert.KernelIdeal.Chain.aE m c)) a b
  rw [key, key, key]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs run, end with equal result arrays, and leave their arguments as launched. -/
theorem algebraic : Cert.algebraic_KernelIdeal_ReferenceIdeal := by
  intro m ρ m' ρ' _ hagree
  refine ⟨fun c => Cert.KernelIdeal.Chain.OUT m c, ?_, ?_⟩
  · exact (θ_run Cert.KernelIdeal.defs _ _).mono
      (fun r h c => ⟨(h c).1.trans (Cert.KernelIdeal.Chain.result_value m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    exact bridge m m' c h0 h1 h2 h3 h4 h5 h6 h7

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
